-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S3 : Shape := ⟨1, ![3]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel
  bcast_S_S3 : S_.BroadcastsInDim S3 (![] : Fin 0 → Fin S3.rank)
  reducesTo_S3_S_d0 : S3.ReducesTo [0] S_

variable [Facts]

def fn {F : FTy → Type} [FloatOps F] (main_arg0 : FVec F S16x3x512x512 .f32) (main_arg1 : FVec F S16x3x512x512 .f32) (main_arg2 : FVec F S3 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S16x3x512x512 .f32 := Host.absf main_arg1
  let main_cst_0 : FVec F S_ .f32 := constant S_ .f32 0x7F800000#32
  let main_v5 : FVec F S16x3x512x512 .f32 := broadcastInDim S16x3x512x512 ![] bcast_S_S16x3x512x512 main_cst_0
  let main_v6 : IVec S16x3x512x512 1 := cmpf .olt main_v4 main_v5
  let main_c_1 : IVec S_ 1 := constantI S_ 1 1#1
  let main_v7 : IVec S_ 1 := (fun x v => Host.reduce IntOp.andi x v reducesTo_S16x3x512x512_S_d0_1_2_3 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  main_v13
-- ==== Kernel.lean ====
abbrev S16x3x512x512 : Shape := ⟨4, ![16, 3, 512, 512]⟩
abbrev S3 : Shape := ⟨1, ![3]⟩
abbrev S3x1x1 : Shape := ⟨3, ![3, 1, 1]⟩
abbrev S16x1x1 : Shape := ⟨3, ![16, 1, 1]⟩
abbrev S2x3x512x512 : Shape := ⟨4, ![2, 3, 512, 512]⟩
abbrev S2x1x1 : Shape := ⟨3, ![2, 1, 1]⟩
abbrev S1x1 : Shape := ⟨2, ![1, 1]⟩
abbrev S1x1x512x512 : Shape := ⟨4, ![1, 1, 512, 512]⟩
abbrev S512x512 : Shape := ⟨2, ![512, 512]⟩
abbrev S1x1x1 : Shape := ⟨3, ![1, 1, 1]⟩
abbrev S512 : Shape := ⟨1, ![512]⟩
abbrev S512x1 : Shape := ⟨2, ![512, 1]⟩
abbrev S1 : Shape := ⟨1, ![1]⟩
abbrev S1x512 : Shape := ⟨2, ![1, 512]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S3, .f32⟩
  | .hbm, ⟨3, _⟩ => ⟨S3x1x1, .f32⟩
  | .hbm, ⟨4, _⟩ => ⟨S16x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S2x3x512x512, .f32⟩
  | .local _ .vmem, ⟨1, _⟩ => ⟨S2x3x512x512, .f32⟩
  | .local _ .vmem, ⟨2, _⟩ => ⟨S2x3x512x512, .f32⟩
  | .local _ .vmem, ⟨3, _⟩ => ⟨S2x3x512x512, .f32⟩
  | .local _ .vmem, ⟨4, _⟩ => ⟨S3x1x1, .f32⟩
  | .local _ .vmem, ⟨5, _⟩ => ⟨S2x1x1, .f32⟩
  | .local _ .vmem, ⟨6, _⟩ => ⟨S2x1x1, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c3_i32 : BitVec 32 := 3#32
  let v2 : BitVec 32 := Scalar.addi c0_i32 c3_i32
  let c1_i32 : BitVec 32 := 1#32
  ⟨c0_i32, v2, c1_i32⟩
def k0_off1 (k0_t1 : Fin k0_t1_loop.trips) : Fin 4 → Nat :=
  let c0_12 : Index := 0#32
  let c0_i32 : BitVec 32 := 0#32
  let c1_i32 : BitVec 32 := 1#32
  let arg5 : BitVec 32 := Scf.iv c0_i32 c1_i32 k0_t1
  let v16 : Index := Scalar.indexCast arg5
  let c0_13 : Index := 0#32
  let c0_14 : Index := 0#32
  ![0, v16.toNat, 0, 0]
def k0_off2 (k0_t1 : Fin k0_t1_loop.trips) : Fin 3 → Nat :=
  let c0_i32 : BitVec 32 := 0#32
  let c1_i32 : BitVec 32 := 1#32
  let arg5 : BitVec 32 := Scf.iv c0_i32 c1_i32 k0_t1
  let v22 : Index := Scalar.indexCast arg5
  let c0_18 : Index := 0#32
  let c0_19 : Index := 0#32
  ![v22.toNat, 0, 0]
@[reducible] def k0_t2_loop : Scf.Loop 32 :=
  let c0_i32_6 : BitVec 32 := 0#32
  let c3_i32_7 : BitVec 32 := 3#32
  let v10 : BitVec 32 := Scalar.addi c0_i32_6 c3_i32_7
  let c1_i32_8 : BitVec 32 := 1#32
  ⟨c0_i32_6, v10, c1_i32_8⟩
def k0_off3 (k0_t2 : Fin k0_t2_loop.trips) : Fin 4 → Nat :=
  let c1_12 : Index := 1#32
  let c0_i32_6 : BitVec 32 := 0#32
  let c1_i32_8 : BitVec 32 := 1#32
  let arg5 : BitVec 32 := Scf.iv c0_i32_6 c1_i32_8 k0_t2
  let v16 : Index := Scalar.indexCast arg5
  let c0_13 : Index := 0#32
  let c0_14 : Index := 0#32
  ![1, v16.toNat, 0, 0]
def k0_off4 (k0_t2 : Fin k0_t2_loop.trips) : Fin 3 → Nat :=
  let c0_i32_6 : BitVec 32 := 0#32
  let c1_i32_8 : BitVec 32 := 1#32
  let arg5 : BitVec 32 := Scf.iv c0_i32_6 c1_i32_8 k0_t2
  let v22 : Index := Scalar.indexCast arg5
  let c0_18 : Index := 0#32
  let c0_19 : Index := 0#32
  ![v22.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S3_S3x1x1 : S3.ShapeCasts S3x1x1
  h_S1x1x512x512 : 0 < S1x1x512x512.numel
  shapeCasts_S1x1x512x512_S512x512 : S1x1x512x512.ShapeCasts S512x512
  h_S1x1x1 : 0 < S1x1x1.numel
  shapeCasts_S1x1x1_S1x1 : S1x1x1.ShapeCasts S1x1
  reduces_S512x512_S512 : S512x512.Reduces [1] S512
  shapeCasts_S512_S512x1 : S512.ShapeCasts S512x1
  reduces_S512x1_S1 : S512x1.Reduces [0] S1
  shapeCasts_S1_S1x1 : S1.ShapeCasts S1x1
  reduces_S512x512_S512_2 : S512x512.Reduces [0] S512
  shapeCasts_S512_S1x512 : S512.ShapeCasts S1x512
  reduces_S1x512_S1 : S1x512.Reduces [1] S1
  inb_S2x1x1_S1x1x1_0_0_0 : ∀ a, (![0, 0, 0] : Fin 3 → Nat) a + S1x1x1.size a ≤ S2x1x1.size a
  shapeCasts_S1x1_S1x1x1 : S1x1.ShapeCasts S1x1x1
  inb_S2x1x1_S1x1x1_1_0_0 : ∀ a, (![1, 0, 0] : Fin 3 → Nat) a + S1x1x1.size a ≤ S2x1x1.size a
  reducesTo_S16x1x1_S_d0_1_2 : S16x1x1.ReducesTo [0, 1, 2] S_
  h_S_ : 0 < S_.numel
  hrank0 : 0 < grid0.rank
  k0_t1_ok : k0_t1_loop.OK
  k0_off1_inb : ∀ k0_t1 : Fin k0_t1_loop.trips, ∀ a, (k0_off1 k0_t1) a + S1x1x512x512.size a ≤ S2x3x512x512.size a
  k0_off2_inb : ∀ k0_t1 : Fin k0_t1_loop.trips, ∀ a, (k0_off2 k0_t1) a + S1x1x1.size a ≤ S3x1x1.size a
  k0_t2_ok : k0_t2_loop.OK
  k0_off3_inb : ∀ k0_t2 : Fin k0_t2_loop.trips, ∀ a, (k0_off3 k0_t2) a + S1x1x512x512.size a ≤ S2x3x512x512.size a
  k0_off4_inb : ∀ k0_t2 : Fin k0_t2_loop.trips, ∀ a, (k0_off4 k0_t2) a + S1x1x1.size a ≤ S3x1x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x3x512x512.size a ≤ S16x3x512x512.size a
  hwx0_0 : ∀ i : grid0.Coords, EltTy.bits .f32 = 32 ∨ (Rect.block (s := S16x3x512x512) S2x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x3x512x512.size a ≤ S16x3x512x512.size a
  hwx0_1 : ∀ i : grid0.Coords, EltTy.bits .f32 = 32 ∨ (Rect.block (s := S16x3x512x512) S2x3x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x1x1.size a ≤ S3x1x1.size a
  hwx0_2 : ∀ i : grid0.Coords, EltTy.bits .f32 = 32 ∨ (Rect.block (s := S3x1x1) S3x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1x1.size a ≤ S16x1x1.size a
  hwx0_3 : ∀ i : grid0.Coords, EltTy.bits .f32 = 32 ∨ (Rect.block (s := S16x1x1) S2x1x1.size (cc0_transform_3 i) (hinb0_3 i)).WholeWords (EltTy.packing .f32)

variable [Facts₀]

abbrev win0_0 : Pipeline.Window sig grid0 :=
  Pipeline.Window.ofSpec (Memref.whole main_arg0) S2x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x3x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S3x1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x3x512x512 : Shape := ⟨4, ![16, 3, 512, 512]⟩
abbrev S3 : Shape := ⟨1, ![3]⟩
abbrev S_ : Shape := ⟨0, ![]⟩
abbrev S16x3x512 : Shape := ⟨3, ![16, 3, 512]⟩
abbrev S16x3x512x1 : Shape := ⟨4, ![16, 3, 512, 1]⟩
abbrev S16x3 : Shape := ⟨2, ![16, 3]⟩
abbrev S16x3x1x512 : Shape := ⟨4, ![16, 3, 1, 512]⟩
abbrev S1x3 : Shape := ⟨2, ![1, 3]⟩

abbrev nBuf : Space → Nat
  | .hbm => 69
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S3, .f32⟩
  | .hbm, ⟨3, _⟩ => ⟨S16x3x512x512, .f32⟩
  | .hbm, ⟨4, _⟩ => ⟨S_, .f32⟩
  | .hbm, ⟨5, _⟩ => ⟨S16x3x512, .f32⟩
  | .hbm, ⟨6, _⟩ => ⟨S16x3x512x1, .f32⟩
  | .hbm, ⟨7, _⟩ => ⟨S16x3x512x1, .f32⟩
  | .hbm, ⟨8, _⟩ => ⟨S_, .f32⟩
  | .hbm, ⟨9, _⟩ => ⟨S16x3x512x1, .f32⟩
  | .hbm, ⟨10, _⟩ => ⟨S16x3x512x1, .f32⟩
  | .hbm, ⟨11, _⟩ => ⟨S16x3x512x512, .f32⟩
  | .hbm, ⟨12, _⟩ => ⟨S16x3x512x512, .f32⟩
  | .hbm, ⟨13, _⟩ => ⟨S16x3x512x512, .f32⟩
  | .hbm, ⟨14, _⟩ => ⟨S_, .f32⟩
  | .hbm, ⟨15, _⟩ => ⟨S16x3x512, .f32⟩
  | .hbm, ⟨16, _⟩ => ⟨S16x3x512x1, .f32⟩
  | .hbm, ⟨17, _⟩ => ⟨S16x3x512x1, .f32⟩
  | .hbm, ⟨18, _⟩ => ⟨S_, .f32⟩
  | .hbm, ⟨19, _⟩ => ⟨S16x3x512x1, .f32⟩
  | .hbm, ⟨20, _⟩ => ⟨S16x3x512x1, .f32⟩
  | .hbm, ⟨21, _⟩ => ⟨S16x3x512x512, .f32⟩
  | .hbm, ⟨22, _⟩ => ⟨S16x3x512x512, .f32⟩
  | .hbm, ⟨23, _⟩ => ⟨S16x3x512x512, .f32⟩
  | .hbm, ⟨24, _⟩ => ⟨S_, .f32⟩
  | .hbm, ⟨25, _⟩ => ⟨S16x3, .f32⟩
  | .hbm, ⟨26, _⟩ => ⟨S_, .f32⟩
  | .hbm, ⟨27, _⟩ => ⟨S16x3, .f32⟩
  | .hbm, ⟨28, _⟩ => ⟨S16x3, .f32⟩
  | .hbm, ⟨29, _⟩ => ⟨S16x3x512x512, .f32⟩
  | .hbm, ⟨30, _⟩ => ⟨S_, .f32⟩
  | .hbm, ⟨31, _⟩ => ⟨S16x3x512, .f32⟩
  | .hbm, ⟨32, _⟩ => ⟨S16x3x1x512, .f32⟩
  | .hbm, ⟨33, _⟩ => ⟨S16x3x1x512, .f32⟩
  | .hbm, ⟨34, _⟩ => ⟨S_, .f32⟩
  | .hbm, ⟨35, _⟩ => ⟨S16x3x1x512, .f32⟩
  | .hbm, ⟨36, _⟩ => ⟨S16x3x1x512, .f32⟩
  | .hbm, ⟨37, _⟩ => ⟨S16x3x512x512, .f32⟩
  | .hbm, ⟨38, _⟩ => ⟨S16x3x512x512, .f32⟩
  | .hbm, ⟨39, _⟩ => ⟨S16x3x512x512, .f32⟩
  | .hbm, ⟨40, _⟩ => ⟨S_, .f32⟩
  | .hbm, ⟨41, _⟩ => ⟨S16x3x512, .f32⟩
  | .hbm, ⟨42, _⟩ => ⟨S16x3x1x512, .f32⟩
  | .hbm, ⟨43, _⟩ => ⟨S16x3x1x512, .f32⟩
  | .hbm, ⟨44, _⟩ => ⟨S_, .f32⟩
  | .hbm, ⟨45, _⟩ => ⟨S16x3x1x512, .f32⟩
  | .hbm, ⟨46, _⟩ => ⟨S16x3x1x512, .f32⟩
  | .hbm, ⟨47, _⟩ => ⟨S16x3x512x512, .f32⟩
  | .hbm, ⟨48, _⟩ => ⟨S16x3x512x512, .f32⟩
  | .hbm, ⟨49, _⟩ => ⟨S16x3x512x512, .f32⟩
  | .hbm, ⟨50, _⟩ => ⟨S_, .f32⟩
  | .hbm, ⟨51, _⟩ => ⟨S16x3, .f32⟩
  | .hbm, ⟨52, _⟩ => ⟨S_, .f32⟩
  | .hbm, ⟨53, _⟩ => ⟨S16x3, .f32⟩
  | .hbm, ⟨54, _⟩ => ⟨S16x3, .f32⟩
  | .hbm, ⟨55, _⟩ => ⟨S1x3, .f32⟩
  | .hbm, ⟨56, _⟩ => ⟨S16x3, .f32⟩
  | .hbm, ⟨57, _⟩ => ⟨S16x3, .f32⟩
  | .hbm, ⟨58, _⟩ => ⟨S_, .f32⟩
  | .hbm, ⟨59, _⟩ => ⟨S_, .f32⟩
  | .hbm, ⟨60, _⟩ => ⟨S1x3, .f32⟩
  | .hbm, ⟨61, _⟩ => ⟨S16x3, .f32⟩
  | .hbm, ⟨62, _⟩ => ⟨S16x3, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_11 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_13 : Ref sig .tc := ⟨.hbm, 67, rfl⟩
abbrev main_v50 : Ref sig .tc := ⟨.hbm, 68, rfl⟩

abbrev nD : Nat := 1
abbrev τ : Topo := Topo.v7x

variable {F : FTy → Type} [FloatOps F]

class Facts₀ : Prop where
  reducesTo_S16x3x512x512_S16x3x512_d3 : S16x3x512x512.ReducesTo [3] S16x3x512
  h_S_ : 0 < S_.numel
  bcast_S16x3x512_S16x3x512x1_0_1_2 : S16x3x512.BroadcastsInDim S16x3x512x1 (![0, 1, 2] : Fin 3 → Fin S16x3x512x1.rank)
  bcast_S_S16x3x512x1 : S_.BroadcastsInDim S16x3x512x1 (![] : Fin 0 → Fin S16x3x512x1.rank)
  bcast_S16x3x512x1_S16x3x512x512_0_1_2_3 : S16x3x512x1.BroadcastsInDim S16x3x512x512 (![0, 1, 2, 3] : Fin 4 → Fin S16x3x512x512.rank)
  reducesTo_S16x3x512x512_S16x3_d2_3 : S16x3x512x512.ReducesTo [2, 3] S16x3
  bcast_S_S16x3 : S_.BroadcastsInDim S16x3 (![] : Fin 0 → Fin S16x3.rank)
  reducesTo_S16x3x512x512_S16x3x512_d2 : S16x3x512x512.ReducesTo [2] S16x3x512
  bcast_S16x3x512_S16x3x1x512_0_1_3 : S16x3x512.BroadcastsInDim S16x3x1x512 (![0, 1, 3] : Fin 3 → Fin S16x3x1x512.rank)
  bcast_S_S16x3x1x512 : S_.BroadcastsInDim S16x3x1x512 (![] : Fin 0 → Fin S16x3x1x512.rank)
  bcast_S16x3x1x512_S16x3x512x512_0_1_2_3 : S16x3x1x512.BroadcastsInDim S16x3x512x512 (![0, 1, 2, 3] : Fin 4 → Fin S16x3x512x512.rank)
  bcast_S3_S1x3_1 : S3.BroadcastsInDim S1x3 (![1] : Fin 1 → Fin S1x3.rank)
  bcast_S1x3_S16x3_0_1 : S1x3.BroadcastsInDim S16x3 (![0, 1] : Fin 2 → Fin S16x3.rank)
  reducesTo_S16x3_S_d0_1 : S16x3.ReducesTo [0, 1] S_

variable [Facts₀]

class Facts : Prop extends Facts₀ where

variable [Facts]
-- ==== Proof.Finite.lean ====
/-
  From the precondition to real entries.

  The precondition says that every entry `v` of the three arguments satisfies `|v| < +∞`, each array's tests joined by
  `and`, the three results joined by `and`.  On the extended reals `|v| = max v (-v)`, and `max v (-v) < e` for any
  bound `e` rules out both infinities: `v = +∞` makes the maximum `+∞`, and `v = -∞` makes `-v = +∞`.  So every
  entry is a real number.
-/
import proofs.«101502_j4818953306340_2_alg».proof.Pre_finite_inputs
import proofs.«101502_j4818953306340_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Finite

open Idealize.ShloMosaic Cert.Pre_finite_inputs Cert.Pre_finite_inputs.Gen

instance : Subsingleton S_.Idx := ⟨fun a b => funext fun d => d.elim0⟩

/-- An extended real whose absolute value is below some bound is a real number. -/
theorem real_of_abs_lt (v e : EReal) (h : Ideal.cmp .olt (max v (-v)) e = 1#1) : ∃ r : ℝ, v = (r : EReal) := by
  have hlt : max v (-v) < e := by
    unfold Ideal.cmp at h
    by_contra hn
    simp [hn] at h
  induction v using EReal.rec with
  | bot => exfalso; simp at hlt
  | coe r => exact ⟨r, rfl⟩
  | top => exfalso; simp at hlt

/-- Under the precondition every entry of the three arguments is a real number. -/
theorem real_entries (a0 a1 : FVec Ideal S16x3x512x512 .f32) (a2 : FVec Ideal S3 .f32)
    (hpre : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h := congrFun hpre ValueIdx.ix0
  dsimp only [fn] at h
  obtain ⟨h8, h12⟩ := IntOp.andi_eq_one.mp h
  obtain ⟨h3, h7⟩ := IntOp.andi_eq_one.mp h8
  refine ⟨fun i => ?_, fun i => ?_, fun i => ?_⟩
  · exact real_of_abs_lt _ _ (Host.reduce_andi_all _ _ _ _ _ h3 i)
  · exact real_of_abs_lt _ _ (Host.reduce_andi_all _ _ _ _ _ h7 i)
  · exact real_of_abs_lt _ _ (Host.reduce_andi_all _ _ _ _ _ h12 i)

end Cert.Finite

end
-- ==== Proof.ProfileReal.lean ====
/-
  Row and column profiles of a pair of real matrices, and the same quantities inside the extended reals.

  For matrices `X`, `Y` the row profile is the mean over the rows `h` of the cosine of row `h` of `X` with row `h` of
  `Y`, each row's length clamped below at a small positive number so that no quotient has a zero divisor; the column
  profile is the same over columns.  The cosine can be written with the quotient outside the inner sum,
  `(∑ x·y) / (|x|·|y|)`, or inside it, `∑ (x/|x|)·(y/|y|)`; on real numbers the two agree, since a common divisor
  moves across a finite sum and `(a/d)·(b/e) = (a·b)/(d·e)`.  On the extended reals neither step is a law (they fail at
  the infinities), so each written form is first shown to be a real number when the entries are.
-/
import Idealize.ShloMosaic.PureOps.Ideal
import Idealize.ShloMosaic.PureOps.Ideal.Laws

noncomputable section

namespace Cert.Profile

open Idealize.ShloMosaic
open scoped BigOperators

/-! ## The literals -/

/-- The clamp under a length: the single-precision number next to `1e-12`, `9223372 · 2⁻⁶³`. -/
def epsR : ℝ := 9223372 * (2 : ℝ) ^ (-63 : ℤ)

theorem epsR_pos : 0 < epsR := by unfold epsR; positivity

theorem ofBits_eps : Ideal.ofBits .f32 0x2B8CBCCC#32 = ((epsR : ℝ) : EReal) := by
  unfold epsR
  simp [Ideal.ofBits, Ideal.ieee, -EReal.coe_mul]

/-- The pattern `0x3B000000` is `2⁻⁹ = 1/512`. -/
theorem ofBits_inv512 : Ideal.ofBits .f32 0x3B000000#32 = ((1 / 512 : ℝ) : EReal) := by
  simp [Ideal.ofBits, Ideal.ieee, -EReal.coe_mul]; norm_num

/-- The pattern `0x44000000` is `2⁹ = 512`. -/
theorem ofBits_512 : Ideal.ofBits .f32 0x44000000#32 = ((512 : ℝ) : EReal) := by
  simp [Ideal.ofBits, Ideal.ieee, -EReal.coe_mul]; norm_num

/-! ## Real numbers inside the extended reals -/

theorem coe_max (a b : ℝ) : ((max a b : ℝ) : EReal) = max (a : EReal) (b : EReal) :=
  EReal.coe_strictMono.monotone.map_max

theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A quotient of real numbers by a nonzero real number is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-! ## The clamped length -/

/-- The length of a vector, clamped below at `epsR`. -/
def nrm {n : ℕ} (f : Fin n → ℝ) : ℝ := max (Real.sqrt (∑ k, f k * f k)) epsR

theorem nrm_pos {n : ℕ} (f : Fin n → ℝ) : 0 < nrm f := lt_max_of_lt_right epsR_pos
theorem nrm_ne {n : ℕ} (f : Fin n → ℝ) : nrm f ≠ 0 := (nrm_pos f).ne'

/-- The clamped length computed on the extended reals from real entries is the real clamped length. -/
theorem clamp_sqrt_sumsq {n : ℕ} (f : Fin n → ℝ) :
    max (Ideal.sqrt (∑ k, (f k : EReal) * (f k : EReal))) (Ideal.ofBits .f32 0x2B8CBCCC#32) = ((nrm f : ℝ) : EReal) := by
  have h0 : ¬ (∑ k, f k * f k) < 0 := not_lt.mpr (Finset.sum_nonneg fun k _ => mul_self_nonneg (f k))
  simp only [← EReal.coe_mul, ← coe_sum]
  rw [Ideal.sqrt_coe, if_neg h0, ofBits_eps, ← coe_max]
  rfl

theorem div_nrm {n : ℕ} (a : ℝ) (f : Fin n → ℝ) : Ideal.div (a : EReal) ((nrm f : ℝ) : EReal) = ((a / nrm f : ℝ) : EReal) :=
  div_coe_coe a (nrm_ne f)

theorem div_nrm2 {n n' : ℕ} (a : ℝ) (f : Fin n → ℝ) (g : Fin n' → ℝ) :
    Ideal.div (a : EReal) (((nrm f * nrm g : ℝ)) : EReal) = ((a / (nrm f * nrm g) : ℝ) : EReal) :=
  div_coe_coe a (mul_ne_zero (nrm_ne f) (nrm_ne g))

/-! ## The profiles over the reals, in the two written forms -/

variable {n m : ℕ}

/-- The row profile with each cosine's quotient outside its sum, scaled by `1/512`. -/
def rowK (X Y : Fin n → Fin m → ℝ) : ℝ :=
  (∑ h, (∑ w, X h w * Y h w) / (nrm (X h) * nrm (Y h))) * (1 / 512)

/-- The column profile with each cosine's quotient outside its sum, scaled by `1/512`. -/
def colK (X Y : Fin n → Fin m → ℝ) : ℝ :=
  (∑ w, (∑ h, X h w * Y h w) / (nrm (fun h => X h w) * nrm (fun h => Y h w))) * (1 / 512)

/-- The row profile with every entry divided by its row's length first, divided by `512`. -/
def rowR (X Y : Fin n → Fin m → ℝ) : ℝ :=
  (∑ h, ∑ w, X h w / nrm (X h) * (Y h w / nrm (Y h))) / 512

/-- The column profile with every entry divided by its column's length first, divided by `512`. -/
def colR (X Y : Fin n → Fin m → ℝ) : ℝ :=
  (∑ h, ∑ w, X h w / nrm (fun h' => X h' w) * (Y h w / nrm (fun h' => Y h' w))) / 512

theorem rowK_eq_rowR (X Y : Fin n → Fin m → ℝ) : rowK X Y = rowR X Y := by
  unfold rowK rowR
  rw [mul_one_div]
  congr 1
  refine Finset.sum_congr rfl fun h _ => ?_
  rw [Finset.sum_div]
  refine Finset.sum_congr rfl fun w _ => ?_
  rw [div_mul_div_comm]

theorem colK_eq_colR (X Y : Fin n → Fin m → ℝ) : colK X Y = colR X Y := by
  unfold colK colR
  rw [mul_one_div]
  congr 1
  rw [Finset.sum_comm]
  refine Finset.sum_congr rfl fun w _ => ?_
  rw [Finset.sum_div]
  refine Finset.sum_congr rfl fun h _ => ?_
  rw [div_mul_div_comm]

/-! ## The same expressions on the extended reals, from real entries -/

theorem rowK_coe (X Y : Fin n → Fin m → ℝ) :
    (∑ h, Ideal.div (∑ w, (X h w : EReal) * (Y h w : EReal))
        (max (Ideal.sqrt (∑ w, (X h w : EReal) * (X h w : EReal))) (Ideal.ofBits .f32 0x2B8CBCCC#32)
          * max (Ideal.sqrt (∑ w, (Y h w : EReal) * (Y h w : EReal))) (Ideal.ofBits .f32 0x2B8CBCCC#32)))
      * Ideal.ofBits .f32 0x3B000000#32 = ((rowK X Y : ℝ) : EReal) := by
  have e : ∀ h, Ideal.div (∑ w, (X h w : EReal) * (Y h w : EReal))
        (max (Ideal.sqrt (∑ w, (X h w : EReal) * (X h w : EReal))) (Ideal.ofBits .f32 0x2B8CBCCC#32)
          * max (Ideal.sqrt (∑ w, (Y h w : EReal) * (Y h w : EReal))) (Ideal.ofBits .f32 0x2B8CBCCC#32))
      = (((∑ w, X h w * Y h w) / (nrm (X h) * nrm (Y h)) : ℝ) : EReal) := by
    intro h
    rw [clamp_sqrt_sumsq (X h), clamp_sqrt_sumsq (Y h)]
    simp only [← EReal.coe_mul, ← coe_sum]
    exact div_nrm2 _ _ _
  simp only [e]
  rw [← coe_sum, ofBits_inv512, ← EReal.coe_mul]
  rfl

theorem colK_coe (X Y : Fin n → Fin m → ℝ) :
    (∑ w, Ideal.div (∑ h, (X h w : EReal) * (Y h w : EReal))
        (max (Ideal.sqrt (∑ h, (X h w : EReal) * (X h w : EReal))) (Ideal.ofBits .f32 0x2B8CBCCC#32)
          * max (Ideal.sqrt (∑ h, (Y h w : EReal) * (Y h w : EReal))) (Ideal.ofBits .f32 0x2B8CBCCC#32)))
      * Ideal.ofBits .f32 0x3B000000#32 = ((colK X Y : ℝ) : EReal) := by
  have e : ∀ w, Ideal.div (∑ h, (X h w : EReal) * (Y h w : EReal))
        (max (Ideal.sqrt (∑ h, (X h w : EReal) * (X h w : EReal))) (Ideal.ofBits .f32 0x2B8CBCCC#32)
          * max (Ideal.sqrt (∑ h, (Y h w : EReal) * (Y h w : EReal))) (Ideal.ofBits .f32 0x2B8CBCCC#32))
      = (((∑ h, X h w * Y h w) / (nrm (fun h => X h w) * nrm (fun h => Y h w)) : ℝ) : EReal) := by
    intro w
    rw [clamp_sqrt_sumsq (fun h => X h w), clamp_sqrt_sumsq (fun h => Y h w)]
    simp only [← EReal.coe_mul, ← coe_sum]
    exact div_nrm2 _ _ _
  simp only [e]
  rw [← coe_sum, ofBits_inv512, ← EReal.coe_mul]
  rfl

theorem rowR_coe (X Y : Fin n → Fin m → ℝ) :
    Ideal.div (∑ h, ∑ w, Ideal.div (X h w : EReal) (max (Ideal.sqrt (∑ k, (X h k : EReal) * (X h k : EReal))) (Ideal.ofBits .f32 0x2B8CBCCC#32))
        * Ideal.div (Y h w : EReal) (max (Ideal.sqrt (∑ k, (Y h k : EReal) * (Y h k : EReal))) (Ideal.ofBits .f32 0x2B8CBCCC#32)))
      (Ideal.ofBits .f32 0x44000000#32) = ((rowR X Y : ℝ) : EReal) := by
  have e : ∀ h w, Ideal.div (X h w : EReal) (max (Ideal.sqrt (∑ k, (X h k : EReal) * (X h k : EReal))) (Ideal.ofBits .f32 0x2B8CBCCC#32))
        * Ideal.div (Y h w : EReal) (max (Ideal.sqrt (∑ k, (Y h k : EReal) * (Y h k : EReal))) (Ideal.ofBits .f32 0x2B8CBCCC#32))
      = ((X h w / nrm (X h) * (Y h w / nrm (Y h)) : ℝ) : EReal) := by
    intro h w
    rw [clamp_sqrt_sumsq (X h), clamp_sqrt_sumsq (Y h), div_nrm, div_nrm, ← EReal.coe_mul]
  simp only [e, ← coe_sum]
  rw [ofBits_512]
  exact div_coe_coe _ (by norm_num)

theorem colR_coe (X Y : Fin n → Fin m → ℝ) :
    Ideal.div (∑ h, ∑ w, Ideal.div (X h w : EReal) (max (Ideal.sqrt (∑ k, (X k w : EReal) * (X k w : EReal))) (Ideal.ofBits .f32 0x2B8CBCCC#32))
        * Ideal.div (Y h w : EReal) (max (Ideal.sqrt (∑ k, (Y k w : EReal) * (Y k w : EReal))) (Ideal.ofBits .f32 0x2B8CBCCC#32)))
      (Ideal.ofBits .f32 0x44000000#32) = ((colR X Y : ℝ) : EReal) := by
  have e : ∀ h w, Ideal.div (X h w : EReal) (max (Ideal.sqrt (∑ k, (X k w : EReal) * (X k w : EReal))) (Ideal.ofBits .f32 0x2B8CBCCC#32))
        * Ideal.div (Y h w : EReal) (max (Ideal.sqrt (∑ k, (Y k w : EReal) * (Y k w : EReal))) (Ideal.ofBits .f32 0x2B8CBCCC#32))
      = ((X h w / nrm (fun h' => X h' w) * (Y h w / nrm (fun h' => Y h' w)) : ℝ) : EReal) := by
    intro h w
    rw [clamp_sqrt_sumsq (fun k => X k w), clamp_sqrt_sumsq (fun k => Y k w), div_nrm, div_nrm, ← EReal.coe_mul]
  simp only [e, ← coe_sum]
  rw [ofBits_512]
  exact div_coe_coe _ (by norm_num)

end Cert.Profile

end
-- ==== Proof.LibLaneOps.lean ====
/-
  Sums along the lanes of a matrix, and two casts, read at an index.

  A float sum of an `[a, b]` matrix along its second axis is a vector of length `a` whose entry `p` is, at the exact
  values, the sum over the lane coordinate `q` of the matrix's entry `(p, q)`.  A `[1, 1, a, b]` array viewed as an
  `[a, b]` matrix keeps its row-major order, so the matrix's entry `(p, q)` is the array's entry `(0, 0, p, q)`.  A
  sum over every index of an `[a, 1, 1]` array is the sum over its leading coordinate.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibLaneOps

open Idealize.ShloMosaic Idealize.ShloMosaic.ValueIdx

/-- The source index over row `p` with lane `q` inserted is `(p, q)`. -/
theorem lift_lane {a b : ℕ} (h : (⟨2, ![a, b]⟩ : Shape).Reduces [1] ⟨1, ![a]⟩) (p : Fin a) (q : Fin b) :
    h.lift (ix1 p) q = ix2 p q := by
  funext ax
  match ax with
  | ⟨0, _⟩ => rfl
  | ⟨1, _⟩ => rfl

/-- A float sum along the lanes of an `[a, b]` matrix is, at row `p`, the sum over the lane coordinate. -/
theorem multiReduction_add_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ q : Fin b, src (ix2 p q) :=
  (Ideal.multiReduction_add_single src acc h hφ hacc (ix1 p)).trans
    (Finset.sum_congr rfl fun q _ => congrArg src (lift_lane h p q))

/-- A `[1, 1, a, b]` array cast to `[a, b]` reads, at `(p, q)`, the operand at `(0, 0, p, q)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp only [Nat.zero_mul, Nat.zero_add])

/-- An index of a rank-3 shape is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of an `[a, 1, 1]` shape is the sum over the leading coordinate. -/
theorem sum_idx3_lead {M : Type*} [AddCommMonoid M] {a : Nat} (f : (⟨3, ![a, 1, 1]⟩ : Shape).Idx → M) :
    ∑ i, f i = ∑ p : Fin a, f (ix3 p (0 : Fin 1) (0 : Fin 1)) := by
  rw [← Equiv.sum_comp (idxEquiv3 (n0 := a) (n1 := 1) (n2 := 1)).symm f, Fintype.sum_prod_type]
  refine Finset.sum_congr rfl fun p _ => ?_
  rw [Fintype.sum_prod_type, Fin.sum_univ_one, Fin.sum_univ_one]
  rfl

end Cert.LibLaneOps

end
-- ==== Proof.LibColumnSums.lean ====
/-
  Column sums of a matrix read at an index.

  A float sum of an `[a, b]` matrix along its rows (axis 0) is a vector of length `b` whose entry `q` is, at
  the exact values, the sum over the row coordinate `p` of the matrix's entry `(p, q)`: the reduced index with the
  row coordinate put back is `(p, q)`.
-/
import Idealize.ShloMosaic.Lib.ValueIdx
import Idealize.ShloMosaic.PureOps.Ideal.Laws

noncomputable section

open scoped BigOperators

namespace Cert.LibColumnSums

open Idealize.ShloMosaic Idealize.ShloMosaic.ValueIdx

/-- The source index over column `q` with row `p` inserted is `(p, q)`. -/
theorem lift_ix1 {a b : ℕ} (h : (⟨2, ![a, b]⟩ : Shape).Reduces [0] ⟨1, ![b]⟩) (q : Fin b) (p : Fin a) :
    h.lift (ix1 q) p = ix2 p q := by
  funext ax
  match ax with
  | ⟨0, _⟩ => rfl
  | ⟨1, _⟩ => rfl

/-- A float sum over the rows of an `[a, b]` matrix is, at column `q`, the sum over the row coordinate. -/
theorem multiReduction_add_rows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) :=
  (Ideal.multiReduction_add_single src acc h hφ hacc (ix1 q)).trans
    (Finset.sum_congr rfl fun p _ => congrArg src (lift_ix1 h q p))

end Cert.LibColumnSums

end
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.KernelPayload.lean ====
/-
  One channel's arithmetic in the kernel body, on real entries.

  For one image channel the body holds the two `512 × 512` slabs `X`, `Y` (read as `[1, 1, 512, 512]` arrays) and the
  channel's weight.  It forms the products `X·X`, `Y·Y`, `X·Y`, sums each along the lanes (for the row profile) and down
  the rows (for the column profile), clamps the square roots of the first two from below, divides the third by their
  product, sums the quotients and scales by `1/512`.  Read index by index on real entries these are the real numbers
  `rowK X Y` and `colK X Y`; the running sums then gain that number times the weight.
-/
import proofs.«101502_j4818953306340_2_alg».proof.Proof.Gen.KernelIdeal.Skeleton
import proofs.«101502_j4818953306340_2_alg».proof.Proof.ProfileReal
import proofs.«101502_j4818953306340_2_alg».proof.Proof.LibLaneOps
import proofs.«101502_j4818953306340_2_alg».proof.Proof.LibColumnSums
import proofs.«101502_j4818953306340_2_alg».proof.Proof.LibColumnLayout

noncomputable section

open scoped BigOperators

namespace Cert.KernelIdeal.Pay

open Cert.KernelIdeal Cert.KernelIdeal.Gen Idealize.ShloMosaic Idealize.ShloMosaic.ValueIdx Cert.Profile

/-! ## The body's reductions and casts at an index -/

/-- The sums along the lanes of a `512 × 512` matrix, as the body writes them. -/
def laneSum (M : FVec Ideal S512x512 .f32) : FVec Ideal S512 .f32 :=
  multiReduction .add [1] S512 M 0x00000000#32 reduces_S512x512_S512 (.inl rfl) rfl
/-- The sums down the rows of a `512 × 512` matrix, as the body writes them. -/
def colSum (M : FVec Ideal S512x512 .f32) : FVec Ideal S512 .f32 :=
  multiReduction .add [0] S512 M 0x00000000#32 reduces_S512x512_S512_2 (.inl rfl) rfl
/-- The sum of a column of 512 entries. -/
def sumDown (v : FVec Ideal S512x1 .f32) : FVec Ideal S1 .f32 :=
  multiReduction .add [0] S1 v 0x00000000#32 reduces_S512x1_S1 (.inl rfl) rfl
/-- The sum of a row of 512 entries. -/
def sumAcross (v : FVec Ideal S1x512 .f32) : FVec Ideal S1 .f32 :=
  multiReduction .add [1] S1 v 0x00000000#32 reduces_S1x512_S1 (.inl rfl) rfl

theorem fold_laneSum (M : FVec Ideal S512x512 .f32) :
    multiReduction .add [1] S512 M 0x00000000#32 reduces_S512x512_S512 (.inl rfl) rfl = laneSum M := rfl
theorem fold_colSum (M : FVec Ideal S512x512 .f32) :
    multiReduction .add [0] S512 M 0x00000000#32 reduces_S512x512_S512_2 (.inl rfl) rfl = colSum M := rfl
theorem fold_sumDown (v : FVec Ideal S512x1 .f32) :
    multiReduction .add [0] S1 v 0x00000000#32 reduces_S512x1_S1 (.inl rfl) rfl = sumDown v := rfl
theorem fold_sumAcross (v : FVec Ideal S1x512 .f32) :
    multiReduction .add [1] S1 v 0x00000000#32 reduces_S1x512_S1 (.inl rfl) rfl = sumAcross v := rfl

theorem laneSum_apply (M : FVec Ideal S512x512 .f32) (p : Fin 512) : laneSum M (ix1 p) = ∑ q : Fin 512, M (ix2 p q) :=
  Cert.LibLaneOps.multiReduction_add_lanes_apply M _ _ _ _ p

theorem colSum_apply (M : FVec Ideal S512x512 .f32) (q : Fin 512) : colSum M (ix1 q) = ∑ p : Fin 512, M (ix2 p q) :=
  Cert.LibColumnSums.multiReduction_add_rows_apply M _ _ _ _ q

theorem sumDown_apply (v : FVec Ideal S512x1 .f32) (u : Fin 1) : sumDown v (ix1 u) = ∑ p : Fin 512, v (ix2 p u) :=
  Cert.LibColumnSums.multiReduction_add_rows_apply v _ _ _ _ u

theorem sumAcross_apply (v : FVec Ideal S1x512 .f32) (u : Fin 1) : sumAcross v (ix1 u) = ∑ q : Fin 512, v (ix2 u q) :=
  Cert.LibLaneOps.multiReduction_add_lanes_apply v _ _ _ _ u

theorem asMat_apply {α : Type} (X : S1x1x512x512.Idx → α) (p q : Fin 512) :
    shapeCast S512x512 X shapeCasts_S1x1x512x512_S512x512 (ix2 p q) = X (ix4 (0 : Fin 1) (0 : Fin 1) p q) :=
  Cert.LibLaneOps.shapeCast_11ab_ab_apply X _ p q

theorem asCol_apply {α : Type} (v : S512.Idx → α) (p : Fin 512) (u : Fin 1) :
    shapeCast S512x1 v shapeCasts_S512_S512x1 (ix2 p u) = v (ix1 p) :=
  Cert.ColumnLayout.shapeCast_a_a1_apply v _ p u

theorem asRow_apply {α : Type} (v : S512.Idx → α) (u : Fin 1) (q : Fin 512) :
    shapeCast S1x512 v shapeCasts_S512_S1x512 (ix2 u q) = v (ix1 q) :=
  shapeCast_a_1a_apply v _ u q

theorem as11_apply {α : Type} (v : S1.Idx → α) (u u' : Fin 1) :
    shapeCast S1x1 v shapeCasts_S1_S1x1 (ix2 u u') = v (ix1 u) :=
  Cert.ColumnLayout.shapeCast_a_a1_apply v _ u u'

theorem w11_apply {α : Type} (v : S1x1x1.Idx → α) (u u' : Fin 1) :
    shapeCast S1x1 v shapeCasts_S1x1x1_S1x1 (ix2 u u') = v (ix3 (0 : Fin 1) u u') :=
  shapeCast_1ab_ab_apply v _ u u'

theorem as111_apply {α : Type} (v : S1x1.Idx → α) (u0 u u' : Fin 1) :
    shapeCast S1x1x1 v shapeCasts_S1x1_S1x1x1 (ix3 u0 u u') = v (ix2 u u') :=
  shapeCast_ab_1ab_apply v _ u0 u u'

theorem sqrt_apply {s : Shape} {φ : FTy} (a : FVec Ideal s φ) (i : s.Idx) : sqrt a i = Ideal.sqrt (a i) := rfl

theorem scalar_ofBits (b : BitVec 32) : (Scalar.ofBits (F := Ideal) .f32 b : EReal) = Ideal.ofBits .f32 b := rfl

/-! ## The channel's two profiles -/

variable (X Y : Vec Ideal S1x1x512x512 .f32) (Xr Yr : Fin 512 → Fin 512 → ℝ)

/-- The row profile of one channel, on real entries. -/
theorem pay17_val (hX : ∀ p q, X (ix4 (0 : Fin 1) (0 : Fin 1) p q) = ((Xr p q : ℝ) : EReal))
    (hY : ∀ p q, Y (ix4 (0 : Fin 1) (0 : Fin 1) p q) = ((Yr p q : ℝ) : EReal)) (u u' : Fin 1) :
    k0_pay17 (F := Ideal) X Y (ix2 u u') = ((rowK Xr Yr : ℝ) : EReal) := by
  rw [← rowK_coe]
  unfold k0_pay17 k0_pay14 k0_pay15 k0_pay16 k0_pay11 k0_pay12
  rw [fold_laneSum, fold_laneSum, fold_laneSum, fold_sumDown]
  simp only [mulf_apply, divf_apply, maximumf_apply, broadcast_apply, sqrt_apply, scalar_ofBits, as11_apply, sumDown_apply,
    asCol_apply, laneSum_apply, asMat_apply, hX, hY]

/-- The first running sum gains the row profile times the weight. -/
theorem pay3_val (hX : ∀ p q, X (ix4 (0 : Fin 1) (0 : Fin 1) p q) = ((Xr p q : ℝ) : EReal))
    (hY : ∀ p q, Y (ix4 (0 : Fin 1) (0 : Fin 1) p q) = ((Yr p q : ℝ) : EReal)) (acc w : FVec Ideal S1x1 .f32) (u u' : Fin 1) :
    k0_pay3 (F := Ideal) acc w (k0_pay17 X Y) (ix2 u u') = acc (ix2 u u') + ((rowK Xr Yr : ℝ) : EReal) * w (ix2 u u') := by
  unfold k0_pay3
  simp only [mulf_apply, addf_apply, pay17_val X Y Xr Yr hX hY]

/-- The second running sum gains the column profile times the weight. -/
theorem pay4_val (hX : ∀ p q, X (ix4 (0 : Fin 1) (0 : Fin 1) p q) = ((Xr p q : ℝ) : EReal))
    (hY : ∀ p q, Y (ix4 (0 : Fin 1) (0 : Fin 1) p q) = ((Yr p q : ℝ) : EReal)) (acc w : FVec Ideal S1x1 .f32) (u u' : Fin 1) :
    k0_pay4 (F := Ideal) acc w (k0_pay18 X Y) (k0_pay19 X) (k0_pay20 Y) (ix2 u u')
      = acc (ix2 u u') + ((colK Xr Yr : ℝ) : EReal) * w (ix2 u u') := by
  rw [← colK_coe]
  unfold k0_pay4 k0_pay18 k0_pay19 k0_pay20 k0_pay14 k0_pay15 k0_pay16 k0_pay11 k0_pay12
  rw [fold_colSum, fold_colSum, fold_colSum, fold_sumAcross]
  simp only [mulf_apply, divf_apply, addf_apply, maximumf_apply, broadcast_apply, sqrt_apply, scalar_ofBits, as11_apply,
    sumAcross_apply, asRow_apply, colSum_apply, asMat_apply, hX, hY]

end Cert.KernelIdeal.Pay

end
-- ==== Proof.ProfileTotal.lean ====
/-
  The total of the weighted profiles over a batch.

  For one image the kernel adds, over its three channels, the row profile times the channel's weight, does the same for
  the column profile, and adds the two sums.  The batch total of those per-image numbers equals the sum over all
  image-channel pairs of the weighted row profiles plus the sum of the weighted column profiles, each profile in its
  other written form: the profiles agree form by form, and finite sums of real numbers regroup freely.
-/
import proofs.«101502_j4818953306340_2_alg».proof.Proof.ProfileReal

noncomputable section

open scoped BigOperators

namespace Cert.Profile

/-- One image's number: the weighted row profiles of its three channels plus the weighted column profiles. -/
def blockVal (A B : Fin 3 → Fin 512 → Fin 512 → ℝ) (W : Fin 3 → ℝ) : ℝ :=
  (rowK (A 0) (B 0) * W 0 + rowK (A 1) (B 1) * W 1 + rowK (A 2) (B 2) * W 2)
    + (colK (A 0) (B 0) * W 0 + colK (A 1) (B 1) * W 1 + colK (A 2) (B 2) * W 2)

/-- The batch total of the per-image numbers is the total of the weighted row profiles plus the total of the weighted
    column profiles. -/
theorem total_eq {N : ℕ} (A B : Fin N → Fin 3 → Fin 512 → Fin 512 → ℝ) (W : Fin 3 → ℝ) :
    ∑ b : Fin N, blockVal (A b) (B b) W
      = (∑ b : Fin N, ∑ c : Fin 3, rowR (A b c) (B b c) * W c) + (∑ b : Fin N, ∑ c : Fin 3, colR (A b c) (B b c) * W c) := by
  simp only [blockVal, rowK_eq_rowR, colK_eq_colR, Fin.sum_univ_three, Finset.sum_add_distrib]

end Cert.Profile

end
-- ==== Proof.KernelBlock.lean ====
/-
  The kernel body's block of two results, from its two channel loops.

  At one grid point the body holds two images of three channels each.  For each image a counted loop runs over the
  channels, carrying two running sums from zero: trip `k` reads channel `k`'s two slabs and its weight and adds the
  channel's row profile times the weight to the first sum and its column profile times the weight to the second.  After
  the loop the two sums are added and stored as that image's entry of the block.  Here one trip is opened once, to the
  pure step it computes of the block's contents; the carried value after three trips is then three steps from zero, and
  the stored block read at `(0,0,0)` and `(1,0,0)` is the first and the second image's sum.
-/
import proofs.«101502_j4818953306340_2_alg».proof.Proof.Gen.KernelIdeal.Frame
import Idealize.ShloMosaic.Lib.Pipeline.Value
import proofs.«101502_j4818953306340_2_alg».proof.Proof.KernelPayload
import proofs.«101502_j4818953306340_2_alg».proof.Proof.ProfileTotal

set_option maxRecDepth 16384

noncomputable section

open scoped BigOperators

namespace Cert.KernelIdeal.Body

open Cert.KernelIdeal Cert.KernelIdeal.Gen Idealize.ShloMosaic Idealize.ShloMosaic.ValueIdx Idealize.ShloMosaic.TcCoe
open Idealize.SL.Sem Cert.Profile

variable {F : FTy → Type} [FloatOps F]

/-- One channel's step on the two running sums: the row profile times the weight joins the first, the column profile
    times the weight the second. -/
def chanStep (X Y : Vec F S1x1x512x512 .f32) (W : Vec F S1x1x1 .f32) (acc : FVec F S1x1 .f32 × FVec F S1x1 .f32) :
    FVec F S1x1 .f32 × FVec F S1x1 .f32 :=
  (k0_pay3 acc.1 (k0_pay13 W) (k0_pay17 X Y), k0_pay4 acc.2 (k0_pay13 W) (k0_pay18 X Y) (k0_pay19 X) (k0_pay20 Y))

theorem trips1 : k0_t1_loop.trips = 3 := by decide
theorem trips2 : k0_t2_loop.trips = 3 := by decide

/-- Channel `n` as a trip of the first loop. -/
def ch1 (n : ℕ) (h : n < 3) : Fin k0_t1_loop.trips := ⟨n, by rw [trips1]; exact h⟩
/-- Channel `n` as a trip of the second loop. -/
def ch2 (n : ℕ) (h : n < 3) : Fin k0_t2_loop.trips := ⟨n, by rw [trips2]; exact h⟩

section Trips

variable (x0 x1 : Vec F S2x3x512x512 .f32) (x2 : Vec F S3x1x1 .f32)

/-- Trip `k` of the first image's loop, on the block's contents. -/
def lane1 (k : Fin k0_t1_loop.trips) (acc : FVec F S1x1 .f32 × FVec F S1x1 .f32) : FVec F S1x1 .f32 × FVec F S1x1 .f32 :=
  chanStep (View.ld x0 (Rect.unit (s := S2x3x512x512) (k0_off1 k) S1x1x512x512.size (k0_off1_inb k)))
    (View.ld x1 (Rect.unit (s := S2x3x512x512) (k0_off1 k) S1x1x512x512.size (k0_off1_inb k)))
    (View.ld x2 (Rect.unit (s := S3x1x1) (k0_off2 k) S1x1x1.size (k0_off2_inb k))) acc

/-- Trip `k` of the second image's loop, on the block's contents. -/
def lane2 (k : Fin k0_t2_loop.trips) (acc : FVec F S1x1 .f32 × FVec F S1x1 .f32) : FVec F S1x1 .f32 × FVec F S1x1 .f32 :=
  chanStep (View.ld x0 (Rect.unit (s := S2x3x512x512) (k0_off3 k) S1x1x512x512.size (k0_off3_inb k)))
    (View.ld x1 (Rect.unit (s := S2x3x512x512) (k0_off3 k) S1x1x512x512.size (k0_off3_inb k)))
    (View.ld x2 (Rect.unit (s := S3x1x1) (k0_off4 k) S1x1x1.size (k0_off4_inb k))) acc

variable (c : Dev nD) (i : grid0.Coords) (arg1 : Memref sig .tc .vmem S2x3x512x512 .f32) (harg1 : arg1.IsWhole) (arg2 : Memref sig .tc .vmem S2x3x512x512 .f32) (harg2 : arg2.IsWhole) (arg3 : Memref sig .tc .vmem S3x1x1 .f32) (harg3 : arg3.IsWhole) (arg4 : Memref sig .tc .vmem S2x1x1 .f32) (harg4 : arg4.IsWhole)

/-- One trip of the first loop, opened: the step `lane1` of the carried pair. -/
theorem trip1_eq (k : Fin k0_t1_loop.trips) (acc : FVec F S1x1 .f32 × FVec F S1x1 .f32) :
    tripR_k0_t1 (F := F) Variants.none c none i arg1 harg1 arg2 harg2 arg3 harg3 arg4 harg4 (harg1.unread x0) (harg2.unread x1) (harg3.unread x2) k acc = lane1 x0 x1 x2 k acc := by
  unfold tripR_k0_t1 trip_k0_t1
  dsimp only
  unfold trip_k0_t1.sl.r trip_k0_t1.sl.r_1 trip_k0_t1.sl.r_2 trip_k0_t1.sl.r_3 trip_k0_t1.sl.r_4 lane1 chanStep
  simp only [View.readAt_eq_ld, harg1.read_unread, harg2.read_unread, harg3.read_unread]

/-- One trip of the second loop, opened: the step `lane2` of the carried pair. -/
theorem trip2_eq (k : Fin k0_t2_loop.trips) (acc : FVec F S1x1 .f32 × FVec F S1x1 .f32) :
    tripR_k0_t2 (F := F) Variants.none c none i arg1 harg1 arg2 harg2 arg3 harg3 arg4 harg4 (harg1.unread x0) (harg2.unread x1) (harg3.unread x2) k acc = lane2 x0 x1 x2 k acc := by
  unfold tripR_k0_t2 trip_k0_t2
  dsimp only
  unfold trip_k0_t2.sl.r trip_k0_t2.sl.r_1 trip_k0_t2.sl.r_2 trip_k0_t2.sl.r_3 trip_k0_t2.sl.r_4 lane2 chanStep
  simp only [View.readAt_eq_ld, harg1.read_unread, harg2.read_unread, harg3.read_unread]
  rfl

/-- The first loop's carried pair after its three trips: three steps from the initial pair. -/
theorem st1_eq (init : FVec F S1x1 .f32 × FVec F S1x1 .f32) (n : ℕ) (hn : n = 3) :
    st_k0_t1 (F := F) Variants.none c none i arg1 harg1 arg2 harg2 arg3 harg3 arg4 harg4 (harg1.unread x0) (harg2.unread x1) (harg3.unread x2) init n
      = lane1 x0 x1 x2 (ch1 2 (by omega)) (lane1 x0 x1 x2 (ch1 1 (by omega)) (lane1 x0 x1 x2 (ch1 0 (by omega)) init)) := by
  subst hn
  refine (st_k0_t1_succ (F := F) Variants.none c none i arg1 harg1 arg2 harg2 arg3 harg3 arg4 harg4 (harg1.unread x0) (harg2.unread x1) (harg3.unread x2) init (ch1 2 (by omega))).trans ?_
  refine (trip1_eq x0 x1 x2 c i arg1 harg1 arg2 harg2 arg3 harg3 arg4 harg4 (ch1 2 (by omega)) _).trans (congrArg (lane1 x0 x1 x2 (ch1 2 (by omega))) ?_)
  refine (st_k0_t1_succ (F := F) Variants.none c none i arg1 harg1 arg2 harg2 arg3 harg3 arg4 harg4 (harg1.unread x0) (harg2.unread x1) (harg3.unread x2) init (ch1 1 (by omega))).trans ?_
  refine (trip1_eq x0 x1 x2 c i arg1 harg1 arg2 harg2 arg3 harg3 arg4 harg4 (ch1 1 (by omega)) _).trans (congrArg (lane1 x0 x1 x2 (ch1 1 (by omega))) ?_)
  refine (st_k0_t1_succ (F := F) Variants.none c none i arg1 harg1 arg2 harg2 arg3 harg3 arg4 harg4 (harg1.unread x0) (harg2.unread x1) (harg3.unread x2) init (ch1 0 (by omega))).trans ?_
  exact trip1_eq x0 x1 x2 c i arg1 harg1 arg2 harg2 arg3 harg3 arg4 harg4 (ch1 0 (by omega)) _

/-- The second loop's carried pair after its three trips. -/
theorem st2_eq (init : FVec F S1x1 .f32 × FVec F S1x1 .f32) (n : ℕ) (hn : n = 3) :
    st_k0_t2 (F := F) Variants.none c none i arg1 harg1 arg2 harg2 arg3 harg3 arg4 harg4 (harg1.unread x0) (harg2.unread x1) (harg3.unread x2) init n
      = lane2 x0 x1 x2 (ch2 2 (by omega)) (lane2 x0 x1 x2 (ch2 1 (by omega)) (lane2 x0 x1 x2 (ch2 0 (by omega)) init)) := by
  subst hn
  refine (st_k0_t2_succ (F := F) Variants.none c none i arg1 harg1 arg2 harg2 arg3 harg3 arg4 harg4 (harg1.unread x0) (harg2.unread x1) (harg3.unread x2) init (ch2 2 (by omega))).trans ?_
  refine (trip2_eq x0 x1 x2 c i arg1 harg1 arg2 harg2 arg3 harg3 arg4 harg4 (ch2 2 (by omega)) _).trans (congrArg (lane2 x0 x1 x2 (ch2 2 (by omega))) ?_)
  refine (st_k0_t2_succ (F := F) Variants.none c none i arg1 harg1 arg2 harg2 arg3 harg3 arg4 harg4 (harg1.unread x0) (harg2.unread x1) (harg3.unread x2) init (ch2 1 (by omega))).trans ?_
  refine (trip2_eq x0 x1 x2 c i arg1 harg1 arg2 harg2 arg3 harg3 arg4 harg4 (ch2 1 (by omega)) _).trans (congrArg (lane2 x0 x1 x2 (ch2 1 (by omega))) ?_)
  refine (st_k0_t2_succ (F := F) Variants.none c none i arg1 harg1 arg2 harg2 arg3 harg3 arg4 harg4 (harg1.unread x0) (harg2.unread x1) (harg3.unread x2) init (ch2 0 (by omega))).trans ?_
  exact trip2_eq x0 x1 x2 c i arg1 harg1 arg2 harg2 arg3 harg3 arg4 harg4 (ch2 0 (by omega)) _

/-- The two running sums of the first image after its loop. -/
def sums1 : FVec F S1x1 .f32 × FVec F S1x1 .f32 :=
  lane1 x0 x1 x2 (ch1 2 (by omega)) (lane1 x0 x1 x2 (ch1 1 (by omega)) (lane1 x0 x1 x2 (ch1 0 (by omega)) (k0_pay1, k0_pay2)))
/-- The two running sums of the second image after its loop. -/
def sums2 : FVec F S1x1 .f32 × FVec F S1x1 .f32 :=
  lane2 x0 x1 x2 (ch2 2 (by omega)) (lane2 x0 x1 x2 (ch2 1 (by omega)) (lane2 x0 x1 x2 (ch2 0 (by omega)) (k0_pay6, k0_pay7)))

/-- The block's entry `(1,0,0)`: the second image's two sums added. -/
theorem out_at1 : out0_A_3 c i arg1 harg1 arg2 harg2 arg3 harg3 arg4 harg4 x0 x1 x2 (ix3 (1 : Fin 2) (0 : Fin 1) (0 : Fin 1))
    = k0_pay10 (sums2 x0 x1 x2).1 (sums2 x0 x1 x2).2 (ix3 (0 : Fin 1) (0 : Fin 1) (0 : Fin 1)) := by
  unfold out0_A_3
  rw [View.read_writes_eq_canon _ _ _ (cover0_A_3 c i arg1 harg1 arg2 harg2 arg3 harg3 arg4 harg4 x0 x1 x2)]
  unfold kernelRun0_A
  dsimp only
  rw [st2_eq x0 x1 x2 c i arg1 harg1 arg2 harg2 arg3 harg3 arg4 harg4 _ _ (by decide)]
  have hy : (ix3 (1 : Fin 2) (0 : Fin 1) (0 : Fin 1) : S2x1x1.Idx)
      = (Rect.unit (s := S2x1x1) ![1, 0, 0] S1x1x1.size inb_S2x1x1_S1x1x1_1_0_0).emb (ix3 (0 : Fin 1) (0 : Fin 1) (0 : Fin 1)) :=
    funext fun a => Fin.ext (by match a with | ⟨0, _⟩ => rfl | ⟨1, _⟩ => rfl | ⟨2, _⟩ => rfl)
  rw [hy]
  exact View.canon_cons_emb _ _ _ _

/-- The block's entry `(0,0,0)`: the first image's two sums added. -/
theorem out_at0 : out0_A_3 c i arg1 harg1 arg2 harg2 arg3 harg3 arg4 harg4 x0 x1 x2 (ix3 (0 : Fin 2) (0 : Fin 1) (0 : Fin 1))
    = k0_pay5 (sums1 x0 x1 x2).1 (sums1 x0 x1 x2).2 (ix3 (0 : Fin 1) (0 : Fin 1) (0 : Fin 1)) := by
  unfold out0_A_3
  rw [View.read_writes_eq_canon _ _ _ (cover0_A_3 c i arg1 harg1 arg2 harg2 arg3 harg3 arg4 harg4 x0 x1 x2)]
  unfold kernelRun0_A
  dsimp only
  rw [st1_eq x0 x1 x2 c i arg1 harg1 arg2 harg2 arg3 harg3 arg4 harg4 _ _ (by decide)]
  rw [View.canon_cons_of_not_mem _ _ (by
    rw [Rect.mem_set_unit]
    intro h
    have := (h 0).1
    exact absurd this (by decide))]
  have hy : (ix3 (0 : Fin 2) (0 : Fin 1) (0 : Fin 1) : S2x1x1.Idx)
      = (Rect.unit (s := S2x1x1) ![0, 0, 0] S1x1x1.size inb_S2x1x1_S1x1x1_0_0_0).emb (ix3 (0 : Fin 1) (0 : Fin 1) (0 : Fin 1)) :=
    funext fun a => Fin.ext (by match a with | ⟨0, _⟩ => rfl | ⟨1, _⟩ => rfl | ⟨2, _⟩ => rfl)
  rw [hy]
  exact View.canon_cons_emb _ _ _ _

end Trips

/-! ## The block on real entries -/

section Values

/-- Image 0, channel `n`: the slab the loop's trip loads, entry `(0, 0, p, q)`, is the block's entry `(0, n, p, q)`. -/
theorem slab1_idx (n : ℕ) (hn : n < 3) (p q : Fin 512) :
    (Rect.unit (s := S2x3x512x512) (k0_off1 (ch1 n hn)) S1x1x512x512.size (k0_off1_inb (ch1 n hn))).idx
        (ix4 (0 : Fin 1) (0 : Fin 1) p q) = ix4 (0 : Fin 2) (⟨n, hn⟩ : Fin 3) p q := by
  funext a; apply Fin.ext
  simp only [LoadRect.idx_apply, Rect.off_unit, Rect.stride_unit, k0_off1_eq]
  match a with
  | ⟨0, _⟩ => rfl
  | ⟨1, _⟩ => show n + 1 * 0 = n; omega
  | ⟨2, _⟩ => show 0 + 1 * p.val = p.val; omega
  | ⟨3, _⟩ => show 0 + 1 * q.val = q.val; omega

/-- Image 0, channel `n`: the weight the trip loads is the weight block's entry `(n, 0, 0)`. -/
theorem wslab1_idx (n : ℕ) (hn : n < 3) :
    (Rect.unit (s := S3x1x1) (k0_off2 (ch1 n hn)) S1x1x1.size (k0_off2_inb (ch1 n hn))).idx
        (ix3 (0 : Fin 1) (0 : Fin 1) (0 : Fin 1)) = ix3 (⟨n, hn⟩ : Fin 3) (0 : Fin 1) (0 : Fin 1) := by
  funext a; apply Fin.ext
  simp only [LoadRect.idx_apply, Rect.off_unit, Rect.stride_unit, k0_off2_eq]
  match a with
  | ⟨0, _⟩ => show n + 1 * 0 = n; omega
  | ⟨1, _⟩ => rfl
  | ⟨2, _⟩ => rfl

theorem lane1_weight (A B : Fin 2 → Fin 3 → Fin 512 → Fin 512 → ℝ) (W : Fin 3 → ℝ)
    (x0 x1 : Vec Ideal S2x3x512x512 .f32) (x2 : Vec Ideal S3x1x1 .f32)
    (h0 : ∀ (l : Fin 2) (k : Fin 3) (p q : Fin 512), x0 (ix4 l k p q) = ((A l k p q : ℝ) : EReal))
    (h1 : ∀ (l : Fin 2) (k : Fin 3) (p q : Fin 512), x1 (ix4 l k p q) = ((B l k p q : ℝ) : EReal))
    (h2 : ∀ k : Fin 3, x2 (ix3 k (0 : Fin 1) (0 : Fin 1)) = ((W k : ℝ) : EReal)) (n : ℕ) (hn : n < 3) :
    k0_pay13 (F := Ideal) (View.ld x2 (Rect.unit (s := S3x1x1) (k0_off2 (ch1 n hn)) S1x1x1.size (k0_off2_inb (ch1 n hn))))
        (ix2 (0 : Fin 1) (0 : Fin 1)) = ((W ⟨n, hn⟩ : ℝ) : EReal) := by
  unfold k0_pay13
  rw [Pay.w11_apply]
  exact (congrArg x2 (wslab1_idx n hn)).trans (h2 _)

/-- One trip on real entries: the first sum gains the channel's row profile times its weight. -/
theorem lane1_fst (A B : Fin 2 → Fin 3 → Fin 512 → Fin 512 → ℝ) (W : Fin 3 → ℝ)
    (x0 x1 : Vec Ideal S2x3x512x512 .f32) (x2 : Vec Ideal S3x1x1 .f32)
    (h0 : ∀ (l : Fin 2) (k : Fin 3) (p q : Fin 512), x0 (ix4 l k p q) = ((A l k p q : ℝ) : EReal))
    (h1 : ∀ (l : Fin 2) (k : Fin 3) (p q : Fin 512), x1 (ix4 l k p q) = ((B l k p q : ℝ) : EReal))
    (h2 : ∀ k : Fin 3, x2 (ix3 k (0 : Fin 1) (0 : Fin 1)) = ((W k : ℝ) : EReal)) (n : ℕ) (hn : n < 3) (acc : FVec Ideal S1x1 .f32 × FVec Ideal S1x1 .f32) :
    (lane1 x0 x1 x2 (ch1 n hn) acc).1 (ix2 (0 : Fin 1) (0 : Fin 1))
      = acc.1 (ix2 (0 : Fin 1) (0 : Fin 1)) + ((rowK (A 0 ⟨n, hn⟩) (B 0 ⟨n, hn⟩) : ℝ) : EReal) * ((W ⟨n, hn⟩ : ℝ) : EReal) :=
  (Pay.pay3_val _ _ (A 0 ⟨n, hn⟩) (B 0 ⟨n, hn⟩)
    (fun p q => (congrArg x0 (slab1_idx n hn p q)).trans (h0 _ _ _ _))
    (fun p q => (congrArg x1 (slab1_idx n hn p q)).trans (h1 _ _ _ _)) acc.1 _ 0 0).trans
    (by rw [lane1_weight A B W x0 x1 x2 h0 h1 h2 n hn])

/-- One trip on real entries: the second sum gains the channel's column profile times its weight. -/
theorem lane1_snd (A B : Fin 2 → Fin 3 → Fin 512 → Fin 512 → ℝ) (W : Fin 3 → ℝ)
    (x0 x1 : Vec Ideal S2x3x512x512 .f32) (x2 : Vec Ideal S3x1x1 .f32)
    (h0 : ∀ (l : Fin 2) (k : Fin 3) (p q : Fin 512), x0 (ix4 l k p q) = ((A l k p q : ℝ) : EReal))
    (h1 : ∀ (l : Fin 2) (k : Fin 3) (p q : Fin 512), x1 (ix4 l k p q) = ((B l k p q : ℝ) : EReal))
    (h2 : ∀ k : Fin 3, x2 (ix3 k (0 : Fin 1) (0 : Fin 1)) = ((W k : ℝ) : EReal)) (n : ℕ) (hn : n < 3) (acc : FVec Ideal S1x1 .f32 × FVec Ideal S1x1 .f32) :
    (lane1 x0 x1 x2 (ch1 n hn) acc).2 (ix2 (0 : Fin 1) (0 : Fin 1))
      = acc.2 (ix2 (0 : Fin 1) (0 : Fin 1)) + ((colK (A 0 ⟨n, hn⟩) (B 0 ⟨n, hn⟩) : ℝ) : EReal) * ((W ⟨n, hn⟩ : ℝ) : EReal) :=
  (Pay.pay4_val _ _ (A 0 ⟨n, hn⟩) (B 0 ⟨n, hn⟩)
    (fun p q => (congrArg x0 (slab1_idx n hn p q)).trans (h0 _ _ _ _))
    (fun p q => (congrArg x1 (slab1_idx n hn p q)).trans (h1 _ _ _ _)) acc.2 _ 0 0).trans
    (by rw [lane1_weight A B W x0 x1 x2 h0 h1 h2 n hn])

/-- Image 0's first running sum after the loop: its weighted row profiles. -/
theorem sums1_fst (A B : Fin 2 → Fin 3 → Fin 512 → Fin 512 → ℝ) (W : Fin 3 → ℝ)
    (x0 x1 : Vec Ideal S2x3x512x512 .f32) (x2 : Vec Ideal S3x1x1 .f32)
    (h0 : ∀ (l : Fin 2) (k : Fin 3) (p q : Fin 512), x0 (ix4 l k p q) = ((A l k p q : ℝ) : EReal))
    (h1 : ∀ (l : Fin 2) (k : Fin 3) (p q : Fin 512), x1 (ix4 l k p q) = ((B l k p q : ℝ) : EReal))
    (h2 : ∀ k : Fin 3, x2 (ix3 k (0 : Fin 1) (0 : Fin 1)) = ((W k : ℝ) : EReal)) :
    (sums1 x0 x1 x2).1 (ix2 (0 : Fin 1) (0 : Fin 1))
      = ((rowK (A 0 0) (B 0 0) * W 0 + rowK (A 0 1) (B 0 1) * W 1 + rowK (A 0 2) (B 0 2) * W 2 : ℝ) : EReal) := by
  unfold sums1
  rw [lane1_fst A B W x0 x1 x2 h0 h1 h2 2 _, lane1_fst A B W x0 x1 x2 h0 h1 h2 1 _, lane1_fst A B W x0 x1 x2 h0 h1 h2 0 _]
  have hz : (k0_pay1 (F := Ideal), k0_pay2 (F := Ideal)).1 (ix2 (0 : Fin 1) (0 : Fin 1)) = 0 := Ideal.ofBits_zero_f32
  rw [hz, zero_add]
  simp only [← EReal.coe_mul, ← EReal.coe_add]
  rfl

/-- Image 0's second running sum after the loop: its weighted column profiles. -/
theorem sums1_snd (A B : Fin 2 → Fin 3 → Fin 512 → Fin 512 → ℝ) (W : Fin 3 → ℝ)
    (x0 x1 : Vec Ideal S2x3x512x512 .f32) (x2 : Vec Ideal S3x1x1 .f32)
    (h0 : ∀ (l : Fin 2) (k : Fin 3) (p q : Fin 512), x0 (ix4 l k p q) = ((A l k p q : ℝ) : EReal))
    (h1 : ∀ (l : Fin 2) (k : Fin 3) (p q : Fin 512), x1 (ix4 l k p q) = ((B l k p q : ℝ) : EReal))
    (h2 : ∀ k : Fin 3, x2 (ix3 k (0 : Fin 1) (0 : Fin 1)) = ((W k : ℝ) : EReal)) :
    (sums1 x0 x1 x2).2 (ix2 (0 : Fin 1) (0 : Fin 1))
      = ((colK (A 0 0) (B 0 0) * W 0 + colK (A 0 1) (B 0 1) * W 1 + colK (A 0 2) (B 0 2) * W 2 : ℝ) : EReal) := by
  unfold sums1
  rw [lane1_snd A B W x0 x1 x2 h0 h1 h2 2 _, lane1_snd A B W x0 x1 x2 h0 h1 h2 1 _, lane1_snd A B W x0 x1 x2 h0 h1 h2 0 _]
  have hz : (k0_pay1 (F := Ideal), k0_pay2 (F := Ideal)).2 (ix2 (0 : Fin 1) (0 : Fin 1)) = 0 := Ideal.ofBits_zero_f32
  rw [hz, zero_add]
  simp only [← EReal.coe_mul, ← EReal.coe_add]
  rfl

/-- The block's entry `(0, 0, 0)` on real entries: image 0's number. -/
theorem out_val0 (A B : Fin 2 → Fin 3 → Fin 512 → Fin 512 → ℝ) (W : Fin 3 → ℝ)
    (x0 x1 : Vec Ideal S2x3x512x512 .f32) (x2 : Vec Ideal S3x1x1 .f32)
    (h0 : ∀ (l : Fin 2) (k : Fin 3) (p q : Fin 512), x0 (ix4 l k p q) = ((A l k p q : ℝ) : EReal))
    (h1 : ∀ (l : Fin 2) (k : Fin 3) (p q : Fin 512), x1 (ix4 l k p q) = ((B l k p q : ℝ) : EReal))
    (h2 : ∀ k : Fin 3, x2 (ix3 k (0 : Fin 1) (0 : Fin 1)) = ((W k : ℝ) : EReal)) (c : Dev nD) (i : grid0.Coords) (arg1 : Memref sig .tc .vmem S2x3x512x512 .f32) (harg1 : arg1.IsWhole) (arg2 : Memref sig .tc .vmem S2x3x512x512 .f32) (harg2 : arg2.IsWhole) (arg3 : Memref sig .tc .vmem S3x1x1 .f32) (harg3 : arg3.IsWhole) (arg4 : Memref sig .tc .vmem S2x1x1 .f32) (harg4 : arg4.IsWhole) :
    out0_A_3 c i arg1 harg1 arg2 harg2 arg3 harg3 arg4 harg4 x0 x1 x2 (ix3 (0 : Fin 2) (0 : Fin 1) (0 : Fin 1)) = ((blockVal (A 0) (B 0) W : ℝ) : EReal) := by
  rw [out_at0]
  unfold k0_pay5
  rw [Pay.as111_apply]
  show (sums1 x0 x1 x2).1 (ix2 (0 : Fin 1) (0 : Fin 1)) + (sums1 x0 x1 x2).2 (ix2 (0 : Fin 1) (0 : Fin 1)) = _
  rw [sums1_fst A B W x0 x1 x2 h0 h1 h2, sums1_snd A B W x0 x1 x2 h0 h1 h2, ← EReal.coe_add]
  rfl

/-- Image 1, channel `n`: the slab the loop's trip loads, entry `(0, 0, p, q)`, is the block's entry `(1, n, p, q)`. -/
theorem slab2_idx (n : ℕ) (hn : n < 3) (p q : Fin 512) :
    (Rect.unit (s := S2x3x512x512) (k0_off3 (ch2 n hn)) S1x1x512x512.size (k0_off3_inb (ch2 n hn))).idx
        (ix4 (0 : Fin 1) (0 : Fin 1) p q) = ix4 (1 : Fin 2) (⟨n, hn⟩ : Fin 3) p q := by
  funext a; apply Fin.ext
  simp only [LoadRect.idx_apply, Rect.off_unit, Rect.stride_unit, k0_off3_eq]
  match a with
  | ⟨0, _⟩ => rfl
  | ⟨1, _⟩ => show n + 1 * 0 = n; omega
  | ⟨2, _⟩ => show 0 + 1 * p.val = p.val; omega
  | ⟨3, _⟩ => show 0 + 1 * q.val = q.val; omega

/-- Image 1, channel `n`: the weight the trip loads is the weight block's entry `(n, 0, 0)`. -/
theorem wslab2_idx (n : ℕ) (hn : n < 3) :
    (Rect.unit (s := S3x1x1) (k0_off4 (ch2 n hn)) S1x1x1.size (k0_off4_inb (ch2 n hn))).idx
        (ix3 (0 : Fin 1) (0 : Fin 1) (0 : Fin 1)) = ix3 (⟨n, hn⟩ : Fin 3) (0 : Fin 1) (0 : Fin 1) := by
  funext a; apply Fin.ext
  simp only [LoadRect.idx_apply, Rect.off_unit, Rect.stride_unit, k0_off4_eq]
  match a with
  | ⟨0, _⟩ => show n + 1 * 0 = n; omega
  | ⟨1, _⟩ => rfl
  | ⟨2, _⟩ => rfl

theorem lane2_weight (A B : Fin 2 → Fin 3 → Fin 512 → Fin 512 → ℝ) (W : Fin 3 → ℝ)
    (x0 x1 : Vec Ideal S2x3x512x512 .f32) (x2 : Vec Ideal S3x1x1 .f32)
    (h0 : ∀ (l : Fin 2) (k : Fin 3) (p q : Fin 512), x0 (ix4 l k p q) = ((A l k p q : ℝ) : EReal))
    (h1 : ∀ (l : Fin 2) (k : Fin 3) (p q : Fin 512), x1 (ix4 l k p q) = ((B l k p q : ℝ) : EReal))
    (h2 : ∀ k : Fin 3, x2 (ix3 k (0 : Fin 1) (0 : Fin 1)) = ((W k : ℝ) : EReal)) (n : ℕ) (hn : n < 3) :
    k0_pay13 (F := Ideal) (View.ld x2 (Rect.unit (s := S3x1x1) (k0_off4 (ch2 n hn)) S1x1x1.size (k0_off4_inb (ch2 n hn))))
        (ix2 (0 : Fin 1) (0 : Fin 1)) = ((W ⟨n, hn⟩ : ℝ) : EReal) := by
  unfold k0_pay13
  rw [Pay.w11_apply]
  exact (congrArg x2 (wslab2_idx n hn)).trans (h2 _)

/-- One trip on real entries: the first sum gains the channel's row profile times its weight. -/
theorem lane2_fst (A B : Fin 2 → Fin 3 → Fin 512 → Fin 512 → ℝ) (W : Fin 3 → ℝ)
    (x0 x1 : Vec Ideal S2x3x512x512 .f32) (x2 : Vec Ideal S3x1x1 .f32)
    (h0 : ∀ (l : Fin 2) (k : Fin 3) (p q : Fin 512), x0 (ix4 l k p q) = ((A l k p q : ℝ) : EReal))
    (h1 : ∀ (l : Fin 2) (k : Fin 3) (p q : Fin 512), x1 (ix4 l k p q) = ((B l k p q : ℝ) : EReal))
    (h2 : ∀ k : Fin 3, x2 (ix3 k (0 : Fin 1) (0 : Fin 1)) = ((W k : ℝ) : EReal)) (n : ℕ) (hn : n < 3) (acc : FVec Ideal S1x1 .f32 × FVec Ideal S1x1 .f32) :
    (lane2 x0 x1 x2 (ch2 n hn) acc).1 (ix2 (0 : Fin 1) (0 : Fin 1))
      = acc.1 (ix2 (0 : Fin 1) (0 : Fin 1)) + ((rowK (A 1 ⟨n, hn⟩) (B 1 ⟨n, hn⟩) : ℝ) : EReal) * ((W ⟨n, hn⟩ : ℝ) : EReal) :=
  (Pay.pay3_val _ _ (A 1 ⟨n, hn⟩) (B 1 ⟨n, hn⟩)
    (fun p q => (congrArg x0 (slab2_idx n hn p q)).trans (h0 _ _ _ _))
    (fun p q => (congrArg x1 (slab2_idx n hn p q)).trans (h1 _ _ _ _)) acc.1 _ 0 0).trans
    (by rw [lane2_weight A B W x0 x1 x2 h0 h1 h2 n hn])

/-- One trip on real entries: the second sum gains the channel's column profile times its weight. -/
theorem lane2_snd (A B : Fin 2 → Fin 3 → Fin 512 → Fin 512 → ℝ) (W : Fin 3 → ℝ)
    (x0 x1 : Vec Ideal S2x3x512x512 .f32) (x2 : Vec Ideal S3x1x1 .f32)
    (h0 : ∀ (l : Fin 2) (k : Fin 3) (p q : Fin 512), x0 (ix4 l k p q) = ((A l k p q : ℝ) : EReal))
    (h1 : ∀ (l : Fin 2) (k : Fin 3) (p q : Fin 512), x1 (ix4 l k p q) = ((B l k p q : ℝ) : EReal))
    (h2 : ∀ k : Fin 3, x2 (ix3 k (0 : Fin 1) (0 : Fin 1)) = ((W k : ℝ) : EReal)) (n : ℕ) (hn : n < 3) (acc : FVec Ideal S1x1 .f32 × FVec Ideal S1x1 .f32) :
    (lane2 x0 x1 x2 (ch2 n hn) acc).2 (ix2 (0 : Fin 1) (0 : Fin 1))
      = acc.2 (ix2 (0 : Fin 1) (0 : Fin 1)) + ((colK (A 1 ⟨n, hn⟩) (B 1 ⟨n, hn⟩) : ℝ) : EReal) * ((W ⟨n, hn⟩ : ℝ) : EReal) :=
  (Pay.pay4_val _ _ (A 1 ⟨n, hn⟩) (B 1 ⟨n, hn⟩)
    (fun p q => (congrArg x0 (slab2_idx n hn p q)).trans (h0 _ _ _ _))
    (fun p q => (congrArg x1 (slab2_idx n hn p q)).trans (h1 _ _ _ _)) acc.2 _ 0 0).trans
    (by rw [lane2_weight A B W x0 x1 x2 h0 h1 h2 n hn])

/-- Image 1's first running sum after the loop: its weighted row profiles. -/
theorem sums2_fst (A B : Fin 2 → Fin 3 → Fin 512 → Fin 512 → ℝ) (W : Fin 3 → ℝ)
    (x0 x1 : Vec Ideal S2x3x512x512 .f32) (x2 : Vec Ideal S3x1x1 .f32)
    (h0 : ∀ (l : Fin 2) (k : Fin 3) (p q : Fin 512), x0 (ix4 l k p q) = ((A l k p q : ℝ) : EReal))
    (h1 : ∀ (l : Fin 2) (k : Fin 3) (p q : Fin 512), x1 (ix4 l k p q) = ((B l k p q : ℝ) : EReal))
    (h2 : ∀ k : Fin 3, x2 (ix3 k (0 : Fin 1) (0 : Fin 1)) = ((W k : ℝ) : EReal)) :
    (sums2 x0 x1 x2).1 (ix2 (0 : Fin 1) (0 : Fin 1))
      = ((rowK (A 1 0) (B 1 0) * W 0 + rowK (A 1 1) (B 1 1) * W 1 + rowK (A 1 2) (B 1 2) * W 2 : ℝ) : EReal) := by
  unfold sums2
  rw [lane2_fst A B W x0 x1 x2 h0 h1 h2 2 _, lane2_fst A B W x0 x1 x2 h0 h1 h2 1 _, lane2_fst A B W x0 x1 x2 h0 h1 h2 0 _]
  have hz : (k0_pay6 (F := Ideal), k0_pay7 (F := Ideal)).1 (ix2 (0 : Fin 1) (0 : Fin 1)) = 0 := Ideal.ofBits_zero_f32
  rw [hz, zero_add]
  simp only [← EReal.coe_mul, ← EReal.coe_add]
  rfl

/-- Image 1's second running sum after the loop: its weighted column profiles. -/
theorem sums2_snd (A B : Fin 2 → Fin 3 → Fin 512 → Fin 512 → ℝ) (W : Fin 3 → ℝ)
    (x0 x1 : Vec Ideal S2x3x512x512 .f32) (x2 : Vec Ideal S3x1x1 .f32)
    (h0 : ∀ (l : Fin 2) (k : Fin 3) (p q : Fin 512), x0 (ix4 l k p q) = ((A l k p q : ℝ) : EReal))
    (h1 : ∀ (l : Fin 2) (k : Fin 3) (p q : Fin 512), x1 (ix4 l k p q) = ((B l k p q : ℝ) : EReal))
    (h2 : ∀ k : Fin 3, x2 (ix3 k (0 : Fin 1) (0 : Fin 1)) = ((W k : ℝ) : EReal)) :
    (sums2 x0 x1 x2).2 (ix2 (0 : Fin 1) (0 : Fin 1))
      = ((colK (A 1 0) (B 1 0) * W 0 + colK (A 1 1) (B 1 1) * W 1 + colK (A 1 2) (B 1 2) * W 2 : ℝ) : EReal) := by
  unfold sums2
  rw [lane2_snd A B W x0 x1 x2 h0 h1 h2 2 _, lane2_snd A B W x0 x1 x2 h0 h1 h2 1 _, lane2_snd A B W x0 x1 x2 h0 h1 h2 0 _]
  have hz : (k0_pay6 (F := Ideal), k0_pay7 (F := Ideal)).2 (ix2 (0 : Fin 1) (0 : Fin 1)) = 0 := Ideal.ofBits_zero_f32
  rw [hz, zero_add]
  simp only [← EReal.coe_mul, ← EReal.coe_add]
  rfl

/-- The block's entry `(1, 0, 0)` on real entries: image 1's number. -/
theorem out_val1 (A B : Fin 2 → Fin 3 → Fin 512 → Fin 512 → ℝ) (W : Fin 3 → ℝ)
    (x0 x1 : Vec Ideal S2x3x512x512 .f32) (x2 : Vec Ideal S3x1x1 .f32)
    (h0 : ∀ (l : Fin 2) (k : Fin 3) (p q : Fin 512), x0 (ix4 l k p q) = ((A l k p q : ℝ) : EReal))
    (h1 : ∀ (l : Fin 2) (k : Fin 3) (p q : Fin 512), x1 (ix4 l k p q) = ((B l k p q : ℝ) : EReal))
    (h2 : ∀ k : Fin 3, x2 (ix3 k (0 : Fin 1) (0 : Fin 1)) = ((W k : ℝ) : EReal)) (c : Dev nD) (i : grid0.Coords) (arg1 : Memref sig .tc .vmem S2x3x512x512 .f32) (harg1 : arg1.IsWhole) (arg2 : Memref sig .tc .vmem S2x3x512x512 .f32) (harg2 : arg2.IsWhole) (arg3 : Memref sig .tc .vmem S3x1x1 .f32) (harg3 : arg3.IsWhole) (arg4 : Memref sig .tc .vmem S2x1x1 .f32) (harg4 : arg4.IsWhole) :
    out0_A_3 c i arg1 harg1 arg2 harg2 arg3 harg3 arg4 harg4 x0 x1 x2 (ix3 (1 : Fin 2) (0 : Fin 1) (0 : Fin 1)) = ((blockVal (A 1) (B 1) W : ℝ) : EReal) := by
  rw [out_at1]
  unfold k0_pay10
  rw [Pay.as111_apply]
  show (sums2 x0 x1 x2).1 (ix2 (0 : Fin 1) (0 : Fin 1)) + (sums2 x0 x1 x2).2 (ix2 (0 : Fin 1) (0 : Fin 1)) = _
  rw [sums2_fst A B W x0 x1 x2 h0 h1 h2, sums2_snd A B W x0 x1 x2 h0 h1 h2, ← EReal.coe_add]
  rfl

end Values

end Cert.KernelIdeal.Body

end
-- ==== Proof.KernelArray.lean ====
/-
  The kernel's result from its blocks.

  Grid point `t` handles images `2t` and `2t + 1`: its input blocks are those two images' channels and its output block
  their two numbers.  The blocks written back tile the `[16, 1, 1]` result array, one entry per image, so after the run
  entry `b` holds image `b`'s number.  The host then sums the sixteen entries from zero, negates and divides by sixteen.
-/
import proofs.«101502_j4818953306340_2_alg».proof.Proof.Gen.KernelIdeal.Frame
import Idealize.ShloMosaic.Lib.Pipeline.Value
import Idealize.ShloMosaic.Lib.StableHlo.Run
import proofs.«101502_j4818953306340_2_alg».proof.Proof.KernelBlock

set_option maxRecDepth 16384

noncomputable section

open scoped BigOperators

namespace Cert.KernelIdeal.Whole

open Cert.KernelIdeal Cert.KernelIdeal.Gen Idealize.ShloMosaic Idealize.ShloMosaic.ValueIdx Idealize.ShloMosaic.TcCoe
open Idealize.SL.Sem Idealize.ShloMosaic.StableHlo Cert.Profile
open Idealize.ShloMosaic.Pipeline (Dat)

/-- Image `b`'s three channels of a real `[16, 3, 512, 512]` array (zero past the batch). -/
def batchR (f : S16x3x512x512.Idx → ℝ) (b : ℕ) : Fin 3 → Fin 512 → Fin 512 → ℝ :=
  fun k p q => if h : b < 16 then f (ix4 (⟨b, h⟩ : Fin 16) k p q) else 0

/-- Image `b`'s number: its weighted row and column profiles. -/
def imageVal (xr yr : S16x3x512x512.Idx → ℝ) (wr : S3.Idx → ℝ) (b : ℕ) : ℝ :=
  blockVal (batchR xr b) (batchR yr b) (fun k => wr (ix1 k))

/-- The result array of the kernel's call: entry `b` is image `b`'s number. -/
def perImage (xr yr : S16x3x512x512.Idx → ℝ) (wr : S3.Idx → ℝ) : S16x1x1.Idx → EReal :=
  fun i => ((imageVal xr yr wr (i 0).val : ℝ) : EReal)

/-- The printed index maps over the grid: the two image windows and the result window move with the point along the
    batch axis, and nothing else moves. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 3) = 0 ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

section

variable (m : (ℓ : Loc nD τ sig) → Buf (Elt Ideal) ℓ) (ρ : Dev nD → PrngReg)
variable (xr yr : S16x3x512x512.Idx → ℝ) (wr : S3.Idx → ℝ) (c : Dev nD)

/-- The reshaped weight vector the call's third window stages: entry `(k, 0, 0)` is the weight `k`. -/
theorem weights_at (hx : ∀ i : S16x3x512x512.Idx, m ((c : Thread nD τ).loc main_arg0) i = ((xr i : ℝ) : EReal))
    (hy : ∀ i : S16x3x512x512.Idx, m ((c : Thread nD τ).loc main_arg1) i = ((yr i : ℝ) : EReal))
    (hw : ∀ i : S3.Idx, m ((c : Thread nD τ).loc main_arg2) i = ((wr i : ℝ) : EReal)) (k : Fin 3) :
    V m c main_v0 (ix3 k (0 : Fin 1) (0 : Fin 1)) = ((wr (ix1 k) : ℝ) : EReal) := by
  have hV : (V m c main_v0 : S3x1x1.Idx → EReal) = shapeCast S3x1x1 (m ((c : Thread nD τ).loc main_arg2)) shapeCasts_S3_S3x1x1 := by
    show StableHlo.after hostOps0 (fun b => m (c, b)) (Proc.devRef .tc main_v0) = _
    after_results
    rfl
  rw [hV, shapeCast_apply _ _ (ix3 k (0 : Fin 1) (0 : Fin 1)) (ix1 k) (by
    rw [Shape.rowMajor_val_three, Shape.rowMajor_val_one]
    show k.val = (k.val * 1 + 0) * 1 + 0
    omega)]
  exact hw (ix1 k)

/-- What point `t` writes back is block `t` of the array of per-image numbers: the numbers of images `2t` and `2t + 1`. -/
theorem flushed_eq (hx : ∀ i : S16x3x512x512.Idx, m ((c : Thread nD τ).loc main_arg0) i = ((xr i : ℝ) : EReal))
    (hy : ∀ i : S16x3x512x512.Idx, m ((c : Thread nD τ).loc main_arg1) i = ((yr i : ℝ) : EReal))
    (hw : ∀ i : S3.Idx, m ((c : Thread nD τ).loc main_arg2) i = ((wr i : ℝ) : EReal)) (t : Fin cfg0.N) :
    (dats m 0 c).flushed 3 t = ((cfg0.win 3).blk t).view.read (Elt Ideal) (perImage xr yr wr) := by
  have hN : cfg0.N = 8 := N_0
  have ht : t.val < 8 := hN ▸ t.isLt
  obtain ⟨e00, e01, e02, e03, e10, e11, e12, e13, e20, e21, e22, e30, e31, e32⟩ := idx_facts t
  have h0 : ∀ (l : Fin 2) (k : Fin 3) (p q : Fin 512),
      iblk m c 0 t (ix4 l k p q) = ((batchR xr (2 * t.val + l.val) k p q : ℝ) : EReal) := by
    intro l k p q
    have hl := l.isLt
    have hlt : 2 * t.val + l.val < 16 := by omega
    show V m c main_arg0 (((cfg0.win 0).blk t).view.emb (ix4 l k p q)) = _
    rw [V_main_arg0, hx]
    unfold batchR
    rw [dif_pos hlt]
    exact congrArg (fun i => ((xr i : ℝ) : EReal)) (funext fun a => Fin.ext (by
      match a with
      | ⟨0, _⟩ => show win0_0.index t (0 : Fin 4) * 2 + 1 * l.val = 2 * t.val + l.val; omega
      | ⟨1, _⟩ => show win0_0.index t (1 : Fin 4) * 3 + 1 * k.val = k.val; omega
      | ⟨2, _⟩ => show win0_0.index t (2 : Fin 4) * 512 + 1 * p.val = p.val; omega
      | ⟨3, _⟩ => show win0_0.index t (3 : Fin 4) * 512 + 1 * q.val = q.val; omega))
  have h1 : ∀ (l : Fin 2) (k : Fin 3) (p q : Fin 512),
      iblk m c 1 t (ix4 l k p q) = ((batchR yr (2 * t.val + l.val) k p q : ℝ) : EReal) := by
    intro l k p q
    have hl := l.isLt
    have hlt : 2 * t.val + l.val < 16 := by omega
    show V m c main_arg1 (((cfg0.win 1).blk t).view.emb (ix4 l k p q)) = _
    rw [V_main_arg1, hy]
    unfold batchR
    rw [dif_pos hlt]
    exact congrArg (fun i => ((yr i : ℝ) : EReal)) (funext fun a => Fin.ext (by
      match a with
      | ⟨0, _⟩ => show win0_1.index t (0 : Fin 4) * 2 + 1 * l.val = 2 * t.val + l.val; omega
      | ⟨1, _⟩ => show win0_1.index t (1 : Fin 4) * 3 + 1 * k.val = k.val; omega
      | ⟨2, _⟩ => show win0_1.index t (2 : Fin 4) * 512 + 1 * p.val = p.val; omega
      | ⟨3, _⟩ => show win0_1.index t (3 : Fin 4) * 512 + 1 * q.val = q.val; omega))
  have h2 : ∀ k : Fin 3, iblk m c 2 t (ix3 k (0 : Fin 1) (0 : Fin 1)) = ((wr (ix1 k) : ℝ) : EReal) := by
    intro k
    show V m c main_v0 (((cfg0.win 2).blk t).view.emb (ix3 k (0 : Fin 1) (0 : Fin 1))) = _
    have he : ((cfg0.win 2).blk t).view.emb (ix3 k (0 : Fin 1) (0 : Fin 1)) = ix3 k (0 : Fin 1) (0 : Fin 1) :=
      funext fun a => Fin.ext (by
        match a with
        | ⟨0, _⟩ => show win0_2.index t (0 : Fin 3) * 3 + 1 * k.val = k.val; omega
        | ⟨1, _⟩ => show win0_2.index t (1 : Fin 3) * 1 + 1 * 0 = 0; omega
        | ⟨2, _⟩ => show win0_2.index t (2 : Fin 3) * 1 + 1 * 0 = 0; omega)
    rw [he]
    exact weights_at m xr yr wr c hx hy hw k
  show (cfg0.win 3).cut (grid0.coords t) ((dats m 0 c).after 3 t) = _
  rw [after0_3]
  unfold outsAt0
  funext j
  obtain ⟨l, u, u', rfl⟩ : ∃ (l : Fin 2) (u u' : Fin 1), j = ix3 l u u' := ⟨j 0, j 1, j 2, eq_ix3 j⟩
  obtain rfl : u = 0 := Subsingleton.elim _ _
  obtain rfl : u' = 0 := Subsingleton.elim _ _
  have hr : ∀ l : Fin 2, perImage xr yr wr (((cfg0.win 3).blk t).view.emb (ix3 l (0 : Fin 1) (0 : Fin 1)))
      = ((imageVal xr yr wr (2 * t.val + l.val) : ℝ) : EReal) := by
    intro l
    show ((imageVal xr yr wr (win0_3.index t (0 : Fin 3) * 2 + 1 * l.val) : ℝ) : EReal) = _
    rw [show win0_3.index t (0 : Fin 3) * 2 + 1 * l.val = 2 * t.val + l.val by omega]
  show out0_A_3 c (grid0.coords t) (ms0_0 t) (hs0_0 t) (ms0_1 t) (hs0_1 t) (ms0_2 t) (hs0_2 t) (ms0_3 t) (hs0_3 t)
      (iblk m c 0 t) (iblk m c 1 t) (iblk m c 2 t) (ix3 l (0 : Fin 1) (0 : Fin 1)) = _
  refine Eq.trans ?_ (hr l).symm
  match l with
  | ⟨0, _⟩ =>
    exact Body.out_val0 (fun l k p q => batchR xr (2 * t.val + l.val) k p q) (fun l k p q => batchR yr (2 * t.val + l.val) k p q)
      (fun k => wr (ix1 k)) _ _ _ h0 h1 h2 c _ _ _ _ _ _ _ _ _
  | ⟨1, _⟩ =>
    exact Body.out_val1 (fun l k p q => batchR xr (2 * t.val + l.val) k p q) (fun l k p q => batchR yr (2 * t.val + l.val) k p q)
      (fun k => wr (ix1 k)) _ _ _ h0 h1 h2 c _ _ _ _ _ _ _ _ _

/-- The result array after the run holds the per-image numbers: every entry lies in the block of the point that handles its
    image, and that point writes the image's number there. -/
theorem final (hx : ∀ i : S16x3x512x512.Idx, m ((c : Thread nD τ).loc main_arg0) i = ((xr i : ℝ) : EReal))
    (hy : ∀ i : S16x3x512x512.Idx, m ((c : Thread nD τ).loc main_arg1) i = ((yr i : ℝ) : EReal))
    (hw : ∀ i : S3.Idx, m ((c : Thread nD τ).loc main_arg2) i = ((wr i : ℝ) : EReal)) : (dats m 0 c).arrAt 3 cfg0.N = perImage xr yr wr :=
  (dats m 0 c).arrAt_eq_of_cover 3 (perImage xr yr wr) (fun t _ => flushed_eq m xr yr wr c hx hy hw t) fun i => by
    have hN : cfg0.N = 8 := N_0
    have hi0 : (i 0 : Nat) < 16 := (i 0).isLt
    have hi1 : (i 1 : Nat) < 1 := (i 1).isLt
    have hi2 : (i 2 : Nat) < 1 := (i 2).isLt
    have hlt : (i 0 : Nat) / 2 < cfg0.N := by rw [hN]; omega
    obtain ⟨e00, e01, e02, e03, e10, e11, e12, e13, e20, e21, e22, e30, e31, e32⟩ := idx_facts ⟨(i 0 : Nat) / 2, hlt⟩
    refine ⟨⟨(i 0 : Nat) / 2, hlt⟩, flush0_3 _, ?_⟩
    show i ∈ ((View.whole main_v1).slice (win0_3.rect ⟨(i 0 : Nat) / 2, hlt⟩)).set
    rw [View.set_slice_whole, Rect.mem_set_unit]
    intro a
    match a with
    | ⟨0, _⟩ =>
      show win0_3.index ⟨(i 0 : Nat) / 2, hlt⟩ (0 : Fin 3) * 2 ≤ (i 0 : Nat) ∧ (i 0 : Nat) < win0_3.index ⟨(i 0 : Nat) / 2, hlt⟩ (0 : Fin 3) * 2 + 2
      rw [e30]; show (i 0 : Nat) / 2 * 2 ≤ (i 0 : Nat) ∧ (i 0 : Nat) < (i 0 : Nat) / 2 * 2 + 2; omega
    | ⟨1, _⟩ =>
      show win0_3.index ⟨(i 0 : Nat) / 2, hlt⟩ (1 : Fin 3) * 1 ≤ (i 1 : Nat) ∧ (i 1 : Nat) < win0_3.index ⟨(i 0 : Nat) / 2, hlt⟩ (1 : Fin 3) * 1 + 1
      rw [e31]; omega
    | ⟨2, _⟩ =>
      show win0_3.index ⟨(i 0 : Nat) / 2, hlt⟩ (2 : Fin 3) * 1 ≤ (i 2 : Nat) ∧ (i 2 : Nat) < win0_3.index ⟨(i 0 : Nat) / 2, hlt⟩ (2 : Fin 3) * 1 + 1
      rw [e32]; omega

/-- The kernel program's result: minus the batch total of the per-image numbers, over sixteen. -/
def kernelResult (xr yr : S16x3x512x512.Idx → ℝ) (wr : S3.Idx → ℝ) : S_.Idx → EReal :=
  fun _ => Ideal.div (-(0 + ∑ b : Fin 16, ((imageVal xr yr wr b.val : ℝ) : EReal))) (Ideal.ofBits .f32 0x41800000#32)

/-- The host operations after the call, on the result array. -/
theorem tail_eq (hx : ∀ i : S16x3x512x512.Idx, m ((c : Thread nD τ).loc main_arg0) i = ((xr i : ℝ) : EReal))
    (hy : ∀ i : S16x3x512x512.Idx, m ((c : Thread nD τ).loc main_arg1) i = ((yr i : ℝ) : EReal))
    (hw : ∀ i : S3.Idx, m ((c : Thread nD τ).loc main_arg2) i = ((wr i : ℝ) : EReal)) :
    Pipeline.afterTail₀ cfgs (dats m) 0 (V0 m) [hostOps1] c main_v4 = kernelResult xr yr wr := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.devRef .tc main_v1)
      = perImage xr yr wr from (Pipeline.withArrays_arr spec0 launch0.win.arr_inj c _ _ 3).trans (final m xr yr wr c hx hy hw)]
  funext j
  simp only [Host.divf, Host.negf, Host.reduceAdd, constant, Ideal.hostDivf_def, Ideal.hostNegf_def, Ideal.negf_def,
    Ideal.hostReduceAdd_def, Ideal.ofBits_def]
  rw [Ideal.hostReduceAdd_total reducesTo_S16x1x1_S_d0_1_2 (fun b => b.elim0), Cert.LibLaneOps.sum_idx3_lead, Ideal.ofBits_zero_f32]
  rfl

/-- The run, read: the kernel program ends with its result at `kernelResult` and its arguments as they were. -/
theorem run (xs ys : Dev nD → S16x3x512x512.Idx → ℝ) (ws : Dev nD → S3.Idx → ℝ)
    (hx : ∀ (c : Dev nD) (i : S16x3x512x512.Idx), m ((c : Thread nD τ).loc main_arg0) i = ((xs c i : ℝ) : EReal))
    (hy : ∀ (c : Dev nD) (i : S16x3x512x512.Idx), m ((c : Thread nD τ).loc main_arg1) i = ((ys c i : ℝ) : EReal))
    (hw : ∀ (c : Dev nD) (i : S3.Idx), m ((c : Thread nD τ).loc main_arg2) i = ((ws c i : ℝ) : EReal)) :
    θ_run defs (onTc (τ := τ) (main (F := Ideal))) ⟨m, fun _ => 0, ρ⟩ fun r => ∀ c : Dev nD,
      r.2.mem ((c.tc : Thread nD τ).loc main_v4) = kernelResult (xs c) (ys c) (ws c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans
        (tail_eq m (xs c) (ys c) (ws c) c (hx c) (hy c) (hw c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end

end Cert.KernelIdeal.Whole

end
-- ==== Proof.LibFlatAxes.lean ====
/-
  Two trailing axes against one flattened axis.

  A host sum over the last two axes of a rank-4 array, read at a pair of leading coordinates, is the initial
  value plus the double sum over the two trailing coordinates.  A sum over a flattened axis of extent `c * d`
  is the double sum over its quotient and remainder by `d`.  A row-major cast that merges the last two axes
  of a rank-3 or rank-4 array reads, at a flattened coordinate `k`, the operand at `(k / d, k % d)`.  And a
  one-slab array `[1, a, b]` repeated along its leading axis reads its only slab.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibFlatAxes

open Idealize.ShloMosaic Idealize.ShloMosaic.ValueIdx

/-- The host's sum over axes 2 and 3 of an `[a, b, c, d]` array, read at `(p, q)`: the initial value plus the
    sum over `t` and `u` of the operand at `(p, q, t, u)`. -/
theorem hostReduceAdd_last2 {a b c d : ℕ}
    (h' : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h' x init (ix2 p q) = init + ∑ t : Fin c, ∑ u : Fin d, x (ix4 p q t u) := by
  unfold Ideal.hostReduceAdd
  refine congrArg (init + ·) ?_
  rw [← Finset.sum_product']
  have h0 : ∀ i, (h'.drop i 0 : ℕ) = i 0 := fun i => rfl
  have h1 : ∀ i, (h'.drop i 1 : ℕ) = i 1 := fun i => rfl
  have hinv : ∀ i ∈ Finset.univ.filter (fun i => h'.drop i = ix2 p q), ix4 p q (i 2) (i 3) = i := by
    intro i hi
    have hd := (Finset.mem_filter.mp hi).2
    have e0 : (i 0 : ℕ) = p := by rw [← h0 i, hd]; rfl
    have e1 : (i 1 : ℕ) = q := by rw [← h1 i, hd]; rfl
    funext e
    match e with
    | ⟨0, _⟩ => exact Fin.ext e0.symm
    | ⟨1, _⟩ => exact Fin.ext e1.symm
    | ⟨2, _⟩ => rfl
    | ⟨3, _⟩ => rfl
  refine Finset.sum_nbij' (fun i => (i 2, i 3)) (fun tu => ix4 p q tu.1 tu.2) ?_ ?_ ?_ ?_ ?_
  · intro i _; exact Finset.mem_product.mpr ⟨Finset.mem_univ _, Finset.mem_univ _⟩
  · intro tu _
    refine Finset.mem_filter.mpr ⟨Finset.mem_univ _, funext fun e => Fin.ext ?_⟩
    match e with
    | ⟨0, _⟩ => exact h0 _
    | ⟨1, _⟩ => exact h1 _
  · exact hinv
  · intro tu _; rfl
  · intro i hi; exact congrArg x (hinv i hi).symm

/-- A sum over a flattened axis of extent `c * d` is the double sum over the quotient and the remainder by `d`. -/
theorem sum_flat {M : Type*} [AddCommMonoid M] {c d : ℕ} (f : Fin c → Fin d → M) :
    ∑ k : Fin (c * d), f k.divNat k.modNat = ∑ t : Fin c, ∑ u : Fin d, f t u := by
  rw [← Fintype.sum_prod_type']
  exact Fintype.sum_equiv finProdFinEquiv.symm _ _ fun k => rfl

/-- An `[a, c, d]` array cast to `[a, c * d]` reads, at `(p, k)`, the operand at `(p, k / d, k % d)`. -/
theorem shapeCast_merge3_apply {α : Type} {a c d n : ℕ} (hn : n = c * d) (x : (⟨3, ![a, c, d]⟩ : Shape).Idx → α)
    (h : (⟨3, ![a, c, d]⟩ : Shape).ShapeCasts ⟨2, ![a, n]⟩) (p : Fin a) (k : Fin n) :
    shapeCast ⟨2, ![a, n]⟩ x h (ix2 p k) = x (ix3 p (k.cast hn).divNat (k.cast hn).modNat) := by
  subst hn
  refine shapeCast_apply x h _ _ ?_
  rw [Shape.rowMajor_val_three, Shape.rowMajor_val_two]
  show (p.val * c + k.val / d) * d + k.val % d = p.val * (c * d) + k.val
  rw [Nat.add_mul, Nat.mul_assoc, Nat.add_assoc, Nat.div_add_mod']

/-- An `[a, b, c, d]` array cast to `[a, b, c * d]` reads, at `(p, q, k)`, the operand at `(p, q, k / d, k % d)`. -/
theorem shapeCast_merge4_apply {α : Type} {a b c d n : ℕ} (hn : n = c * d) (x : (⟨4, ![a, b, c, d]⟩ : Shape).Idx → α)
    (h : (⟨4, ![a, b, c, d]⟩ : Shape).ShapeCasts ⟨3, ![a, b, n]⟩) (p : Fin a) (q : Fin b) (k : Fin n) :
    shapeCast ⟨3, ![a, b, n]⟩ x h (ix3 p q k) = x (ix4 p q (k.cast hn).divNat (k.cast hn).modNat) := by
  subst hn
  refine shapeCast_apply x h _ _ ?_
  rw [Shape.rowMajor_val_four, Shape.rowMajor_val_three]
  show ((p.val * b + q.val) * c + k.val / d) * d + k.val % d = (p.val * b + q.val) * (c * d) + k.val
  rw [Nat.add_mul, Nat.mul_assoc, Nat.add_assoc, Nat.div_add_mod']

/-- A `[1, a, b]` array repeated to `[m, a, b]` reads, at `(r, p, q)`, its one slab at `(p, q)`. -/
theorem broadcastTo_1ab_mab_apply {α : Type} {m a b : ℕ} (v : (⟨3, ![1, a, b]⟩ : Shape).Idx → α)
    (h : (⟨3, ![1, a, b]⟩ : Shape).Broadcasts ⟨3, ![m, a, b]⟩) (r : Fin m) (p : Fin a) (q : Fin b) :
    broadcastTo ⟨3, ![m, a, b]⟩ v h (ix3 r p q) = v (ix3 (0 : Fin 1) p q) := by
  refine broadcastTo_apply v h (ix3 r p q) (ix3 (0 : Fin 1) p q) fun ax => ?_
  match ax with
  | ⟨0, _⟩ => rfl
  | ⟨1, _⟩ =>
    show p.val = if a = 1 then 0 else p.val
    split
    · have := p.isLt; omega
    · rfl
  | ⟨2, _⟩ =>
    show q.val = if b = 1 then 0 else q.val
    split
    · have := q.isLt; omega
    · rfl

end Cert.LibFlatAxes

end
-- ==== Proof.RefValue.lean ====
/-
  The reference program's result on real entries.

  The reference divides every entry of the two images by the clamped length of its row, multiplies the two quotients,
  sums over the rows' and lanes' coordinates and divides by 512: the row profile with every entry normalised first.  It
  does the same with the lengths of the columns.  Each profile is weighted by its channel's weight and summed over all
  image-channel pairs from zero; the two totals are added, negated and divided by sixteen.
-/
import proofs.«101502_j4818953306340_2_alg».proof.Proof.Gen.ReferenceIdeal.Read
import proofs.«101502_j4818953306340_2_alg».proof.Proof.ProfileTotal
import proofs.«101502_j4818953306340_2_alg».proof.Proof.LibFlatAxes
import Idealize.ShloMosaic.Lib.ValueIdx

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Profile

/-- Entry `(b, c, h, w)` of `x0` divided by its row's clamped length. -/
theorem xrow_at (x0 : (⟨S16x3x512x512, .f32⟩ : BufTy).Contents (Elt Ideal)) (xr : S16x3x512x512.Idx → ℝ)
    (hx0 : ∀ i, x0 i = ((xr i : ℝ) : EReal)) (b : Fin 16) (c : Fin 3) (h w : Fin 512) :
    val_main_v7 (F := Ideal) x0 (ix4 b c h w)
      = Ideal.div ((xr (ix4 b c h w) : ℝ) : EReal)
          (max (Ideal.sqrt (∑ k : Fin 512, ((xr (ix4 b c h k) : ℝ) : EReal) * ((xr (ix4 b c h k) : ℝ) : EReal))) (Ideal.ofBits .f32 0x2B8CBCCC#32)) := by
  have e : ∀ k : Fin 512, idx_main_v1 (idx_main_v2 (idx_main_v6 (ix4 b c h w))) k = ix4 b c h k := fun k => funext fun a => Fin.ext (by match a with | ⟨0, _⟩ => rfl | ⟨1, _⟩ => rfl | ⟨2, _⟩ => rfl | ⟨3, _⟩ => rfl)
  rw [val_main_v7_apply, val_main_v6_apply, val_main_v5_apply, val_main_v3_apply, val_main_v2_apply, val_main_v1_apply, val_main_v4_apply, val_main_cst_0_apply, val_main_cst_apply]
  simp only [val_main_v0_apply, e, hx0, Ideal.hostDivf_def, Ideal.maximumf_def, Ideal.hostUnary_sqrt_def, Ideal.ofBits_def,
    Ideal.mulf_def, Ideal.ofBits_zero_f32, zero_add]

/-- Entry `(b, c, h, w)` of `x1` divided by its row's clamped length. -/
theorem yrow_at (x1 : (⟨S16x3x512x512, .f32⟩ : BufTy).Contents (Elt Ideal)) (yr : S16x3x512x512.Idx → ℝ)
    (hx1 : ∀ i, x1 i = ((yr i : ℝ) : EReal)) (b : Fin 16) (c : Fin 3) (h w : Fin 512) :
    val_main_v15 (F := Ideal) x1 (ix4 b c h w)
      = Ideal.div ((yr (ix4 b c h w) : ℝ) : EReal)
          (max (Ideal.sqrt (∑ k : Fin 512, ((yr (ix4 b c h k) : ℝ) : EReal) * ((yr (ix4 b c h k) : ℝ) : EReal))) (Ideal.ofBits .f32 0x2B8CBCCC#32)) := by
  have e : ∀ k : Fin 512, idx_main_v9 (idx_main_v10 (idx_main_v14 (ix4 b c h w))) k = ix4 b c h k := fun k => funext fun a => Fin.ext (by match a with | ⟨0, _⟩ => rfl | ⟨1, _⟩ => rfl | ⟨2, _⟩ => rfl | ⟨3, _⟩ => rfl)
  rw [val_main_v15_apply, val_main_v14_apply, val_main_v13_apply, val_main_v11_apply, val_main_v10_apply, val_main_v9_apply, val_main_v12_apply, val_main_cst_2_apply, val_main_cst_1_apply]
  simp only [val_main_v8_apply, e, hx1, Ideal.hostDivf_def, Ideal.maximumf_def, Ideal.hostUnary_sqrt_def, Ideal.ofBits_def,
    Ideal.mulf_def, Ideal.ofBits_zero_f32, zero_add]

/-- Entry `(b, c, h, w)` of `x0` divided by its column's clamped length. -/
theorem xcol_at (x0 : (⟨S16x3x512x512, .f32⟩ : BufTy).Contents (Elt Ideal)) (xr : S16x3x512x512.Idx → ℝ)
    (hx0 : ∀ i, x0 i = ((xr i : ℝ) : EReal)) (b : Fin 16) (c : Fin 3) (h w : Fin 512) :
    val_main_v27 (F := Ideal) x0 (ix4 b c h w)
      = Ideal.div ((xr (ix4 b c h w) : ℝ) : EReal)
          (max (Ideal.sqrt (∑ k : Fin 512, ((xr (ix4 b c k w) : ℝ) : EReal) * ((xr (ix4 b c k w) : ℝ) : EReal))) (Ideal.ofBits .f32 0x2B8CBCCC#32)) := by
  have e : ∀ k : Fin 512, idx_main_v21 (idx_main_v22 (idx_main_v26 (ix4 b c h w))) k = ix4 b c k w := fun k => funext fun a => Fin.ext (by match a with | ⟨0, _⟩ => rfl | ⟨1, _⟩ => rfl | ⟨2, _⟩ => rfl | ⟨3, _⟩ => rfl)
  rw [val_main_v27_apply, val_main_v26_apply, val_main_v25_apply, val_main_v23_apply, val_main_v22_apply, val_main_v21_apply, val_main_v24_apply, val_main_cst_6_apply, val_main_cst_5_apply]
  simp only [val_main_v20_apply, e, hx0, Ideal.hostDivf_def, Ideal.maximumf_def, Ideal.hostUnary_sqrt_def, Ideal.ofBits_def,
    Ideal.mulf_def, Ideal.ofBits_zero_f32, zero_add]

/-- Entry `(b, c, h, w)` of `x1` divided by its column's clamped length. -/
theorem ycol_at (x1 : (⟨S16x3x512x512, .f32⟩ : BufTy).Contents (Elt Ideal)) (yr : S16x3x512x512.Idx → ℝ)
    (hx1 : ∀ i, x1 i = ((yr i : ℝ) : EReal)) (b : Fin 16) (c : Fin 3) (h w : Fin 512) :
    val_main_v35 (F := Ideal) x1 (ix4 b c h w)
      = Ideal.div ((yr (ix4 b c h w) : ℝ) : EReal)
          (max (Ideal.sqrt (∑ k : Fin 512, ((yr (ix4 b c k w) : ℝ) : EReal) * ((yr (ix4 b c k w) : ℝ) : EReal))) (Ideal.ofBits .f32 0x2B8CBCCC#32)) := by
  have e : ∀ k : Fin 512, idx_main_v29 (idx_main_v30 (idx_main_v34 (ix4 b c h w))) k = ix4 b c k w := fun k => funext fun a => Fin.ext (by match a with | ⟨0, _⟩ => rfl | ⟨1, _⟩ => rfl | ⟨2, _⟩ => rfl | ⟨3, _⟩ => rfl)
  rw [val_main_v35_apply, val_main_v34_apply, val_main_v33_apply, val_main_v31_apply, val_main_v30_apply, val_main_v29_apply, val_main_v32_apply, val_main_cst_8_apply, val_main_cst_7_apply]
  simp only [val_main_v28_apply, e, hx1, Ideal.hostDivf_def, Ideal.maximumf_def, Ideal.hostUnary_sqrt_def, Ideal.ofBits_def,
    Ideal.mulf_def, Ideal.ofBits_zero_f32, zero_add]

section

variable (x0 x1 : (⟨S16x3x512x512, .f32⟩ : BufTy).Contents (Elt Ideal)) (x2 : (⟨S3, .f32⟩ : BufTy).Contents (Elt Ideal))
variable (xr yr : S16x3x512x512.Idx → ℝ) (wr : S3.Idx → ℝ)

/-- Channel `c` of image `b` of a real `[16, 3, 512, 512]` array, as a matrix. -/
def chan (f : S16x3x512x512.Idx → ℝ) (b : Fin 16) (c : Fin 3) : Fin 512 → Fin 512 → ℝ := fun p q => f (ix4 b c p q)

/-- The reference's row profile of image `b`, channel `c`. -/
theorem rowProfile_at (hx0 : ∀ i, x0 i = ((xr i : ℝ) : EReal)) (hx1 : ∀ i, x1 i = ((yr i : ℝ) : EReal)) (b : Fin 16) (c : Fin 3) :
    val_main_v19 (F := Ideal) x0 x1 (ix2 b c) = ((rowR (chan xr b c) (chan yr b c) : ℝ) : EReal) := by
  rw [← rowR_coe, val_main_v19_apply, val_main_v18_apply, val_main_cst_4_apply]
  unfold val_main_v17
  simp only [Host.reduceAdd, Ideal.hostReduceAdd_def, Ideal.hostDivf_def, Ideal.ofBits_def]
  rw [Cert.LibFlatAxes.hostReduceAdd_last2]
  simp only [val_main_v16_apply, xrow_at x0 xr hx0, yrow_at x1 yr hx1, val_main_cst_3_apply, Ideal.mulf_def, Ideal.ofBits_def,
    Ideal.ofBits_zero_f32, zero_add, chan]

/-- The reference's column profile of image `b`, channel `c`. -/
theorem colProfile_at (hx0 : ∀ i, x0 i = ((xr i : ℝ) : EReal)) (hx1 : ∀ i, x1 i = ((yr i : ℝ) : EReal)) (b : Fin 16) (c : Fin 3) :
    val_main_v39 (F := Ideal) x0 x1 (ix2 b c) = ((colR (chan xr b c) (chan yr b c) : ℝ) : EReal) := by
  rw [← colR_coe, val_main_v39_apply, val_main_v38_apply, val_main_cst_10_apply]
  unfold val_main_v37
  simp only [Host.reduceAdd, Ideal.hostReduceAdd_def, Ideal.hostDivf_def, Ideal.ofBits_def]
  rw [Cert.LibFlatAxes.hostReduceAdd_last2]
  simp only [val_main_v36_apply, xcol_at x0 xr hx0, ycol_at x1 yr hx1, val_main_cst_9_apply, Ideal.mulf_def, Ideal.ofBits_def,
    Ideal.ofBits_zero_f32, zero_add, chan]

/-- The weight broadcast over the batch: entry `(b, c)` is the weight `c`. -/
theorem weight_at (hx2 : ∀ i, x2 i = ((wr i : ℝ) : EReal)) (b : Fin 16) (c : Fin 3) :
    val_main_v41 (F := Ideal) x2 (ix2 b c) = ((wr (ix1 c) : ℝ) : EReal) := by
  rw [val_main_v41_apply, val_main_v40_apply, hx2]
  exact congrArg (fun i => ((wr i : ℝ) : EReal)) (funext fun a => Fin.ext (by match a with | ⟨0, _⟩ => rfl))

theorem weight_at' (hx2 : ∀ i, x2 i = ((wr i : ℝ) : EReal)) (b : Fin 16) (c : Fin 3) :
    val_main_v45 (F := Ideal) x2 (ix2 b c) = ((wr (ix1 c) : ℝ) : EReal) := by
  rw [val_main_v45_apply, val_main_v44_apply, hx2]
  exact congrArg (fun i => ((wr i : ℝ) : EReal)) (funext fun a => Fin.ext (by match a with | ⟨0, _⟩ => rfl))

/-- The reference program's result: minus the two weighted totals added, over sixteen. -/
def refResult (xr yr : S16x3x512x512.Idx → ℝ) (wr : S3.Idx → ℝ) : S_.Idx → EReal :=
  fun _ => Ideal.div (-((∑ b : Fin 16, ∑ c : Fin 3, ((rowR (chan xr b c) (chan yr b c) * wr (ix1 c) : ℝ) : EReal))
      + (∑ b : Fin 16, ∑ c : Fin 3, ((colR (chan xr b c) (chan yr b c) * wr (ix1 c) : ℝ) : EReal)))) (Ideal.ofBits .f32 0x41800000#32)

theorem result_eq (hx0 : ∀ i, x0 i = ((xr i : ℝ) : EReal)) (hx1 : ∀ i, x1 i = ((yr i : ℝ) : EReal))
    (hx2 : ∀ i, x2 i = ((wr i : ℝ) : EReal)) :
    val_main_v50 (F := Ideal) x0 x1 x2 = refResult xr yr wr := by
  funext i
  rw [val_main_v50_apply, val_main_v49_apply, val_main_v48_apply, val_main_v43_apply, val_main_v47_apply, val_main_cst_13_apply,
    val_main_cst_11_apply, val_main_cst_12_apply, sum_idx2, sum_idx2]
  simp only [val_main_v42_apply, val_main_v46_apply, rowProfile_at x0 x1 xr yr hx0 hx1, colProfile_at x0 x1 xr yr hx0 hx1,
    weight_at x2 wr hx2, weight_at' x2 wr hx2, Ideal.hostDivf_def, Ideal.hostNegf_def, Ideal.negf_def, Ideal.addf_def,
    Ideal.mulf_def, Ideal.ofBits_def, Ideal.ofBits_zero_f32, zero_add, ← EReal.coe_mul]
  rfl

end

end Cert.ReferenceIdeal.RefValue

end
-- ==== Proof.Bridge.lean ====
/-
  The two programs' results are one number.

  The kernel program's result is minus the batch total of the per-image numbers over sixteen; the reference's is minus
  the sum of its two weighted totals over sixteen.  Under the shared negation and division the two totals are the same
  real number: each image's number is its three channels' weighted row profiles plus its weighted column profiles, the
  profiles agree in their two written forms, and finite sums of real numbers regroup.
-/
import proofs.«101502_j4818953306340_2_alg».proof.Proof.KernelArray
import proofs.«101502_j4818953306340_2_alg».proof.Proof.RefValue

noncomputable section

open scoped BigOperators

namespace Cert.Bridge

open Idealize.ShloMosaic Idealize.ShloMosaic.ValueIdx Cert.Profile
open Cert.KernelIdeal.Whole Cert.ReferenceIdeal.RefValue

theorem result_eq (xr yr : Cert.KernelIdeal.S16x3x512x512.Idx → ℝ) (wr : Cert.KernelIdeal.S3.Idx → ℝ) :
    kernelResult xr yr wr = refResult xr yr wr := by
  funext j
  unfold kernelResult refResult
  refine congrArg (fun t : EReal => Ideal.div (-t) (Ideal.ofBits .f32 0x41800000#32)) ?_
  have e : ∀ b : Fin 16, imageVal xr yr wr b.val = blockVal (fun c => chan xr b c) (fun c => chan yr b c) (fun c => wr (ix1 c)) := by
    intro b
    unfold imageVal batchR
    simp only [dif_pos b.isLt]
    rfl
  rw [zero_add]
  simp only [← coe_sum, ← EReal.coe_add, e]
  exact congrArg (fun t : ℝ => (t : EReal)) (total_eq (fun b c => chan xr b c) (fun b c => chan yr b c) (fun c => wr (ix1 c)))

end Cert.Bridge

end
-- ==== Proof.lean ====
/-
  The certificate's proof: a Pallas kernel for a weighted row-and-column cosine profile of two image batches, against its
  jnp reference, over the extended reals.

  For images `x`, `y` of shape `[16, 3, 512, 512]` and channel weights `w` both programs compute
  `-(∑ over images and channels of (row profile + column profile) · w) / 16`, where a channel's row profile is the mean over
  its 512 rows of the cosine of `x`'s row with `y`'s row, each row's length clamped below at the single-precision number
  next to `1e-12`, and the column profile is the same over columns.  The kernel takes two images per grid point, loops
  over the three channels carrying the two running sums, forms each cosine as `(∑ x·y) / (|x|·|y|)` and scales by the
  literal `1/512`; the reference normalises every entry first, `∑ (x/|x|)·(y/|y|)`, and divides by `512`.  With finite
  inputs every quantity is a real number, every divisor is positive, and the two forms agree by `(a/d)·(b/e) = (a·b)/(d·e)`
  and by moving a common divisor across a finite sum; the remaining differences are groupings of finite real sums.  At
  the infinities these laws fail, which is where the precondition is used.

  The frames of the two kernel programs are the generated ones; the reference's frame is its generated run with the
  result dropped.  The kernel's value is read off its generated frame run (Proof/KernelBlock.lean: one loop trip opened to a
  pure step; Proof/KernelArray.lean: blocks to array, then the host's sum, sign and scale), the reference's off its generated
  run one operation at a time (Proof/RefValue.lean), and Proof/Bridge.lean joins the two.
-/
import proofs.«101502_j4818953306340_2_alg».proof.Defs
import proofs.«101502_j4818953306340_2_alg».proof.Proof.Gen.Kernel
import proofs.«101502_j4818953306340_2_alg».proof.Proof.Gen.Kernel.Frame
import proofs.«101502_j4818953306340_2_alg».proof.Proof.Gen.KernelIdeal
import proofs.«101502_j4818953306340_2_alg».proof.Proof.Gen.KernelIdeal.Frame
import proofs.«101502_j4818953306340_2_alg».proof.Proof.Gen.ReferenceIdeal
import proofs.«101502_j4818953306340_2_alg».proof.Proof.Gen.Pre_finite_inputs
import proofs.«101502_j4818953306340_2_alg».proof.Proof.Gen.ReferenceIdeal.Run
import proofs.«101502_j4818953306340_2_alg».proof.Proof.Gen.ReferenceIdeal.Read
import proofs.«101502_j4818953306340_2_alg».proof.Proof.Finite
import proofs.«101502_j4818953306340_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealizing pass rewrote nothing, so there is nothing to preserve. -/
theorem preserves : Cert.preserves_Kernel_KernelIdeal := trivial

/-- From memories agreeing on finite arguments both programs end with the same extended real: the kernel's result array
    holds each image's number, the host sums, negates and scales them, and that is the reference's value. -/
theorem algebraic : Cert.algebraic_KernelIdeal_ReferenceIdeal := by
  intro m ρ m' ρ' hpre hagree
  choose xs hxs using fun c i => (Cert.Finite.real_entries _ _ _ (hpre c)).1 i
  choose ys hys using fun c i => (Cert.Finite.real_entries _ _ _ (hpre c)).2.1 i
  choose ws hws using fun c i => (Cert.Finite.real_entries _ _ _ (hpre c)).2.2 i
  refine ⟨fun c => Cert.KernelIdeal.Whole.kernelResult (xs c) (ys c) (ws c),
    Cert.KernelIdeal.Whole.run m ρ xs ys ws hxs hys hws, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq,
    Cert.ReferenceIdeal.RefValue.result_eq _ _ _ (xs c) (ys c) (ws c)
      (fun i => by rw [(hagree c).1]; exact hxs c i)
      (fun i => by rw [(hagree c).2.1]; exact hys c i)
      (fun i => by rw [(hagree c).2.2]; exact hws c i)]
  exact (Cert.Bridge.result_eq (xs c) (ys c) (ws c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
